-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v74) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x64x512 : Shape := ⟨3, ![2, 64, 512]⟩
abbrev S_ : Shape := ⟨0, ![]⟩

class Facts : Prop where
  bcast_S_S2x64x512 : S_.BroadcastsInDim S2x64x512 (![] : Fin 0 → Fin S2x64x512.rank)
  reducesTo_S2x64x512_S_d0_1_2 : S2x64x512.ReducesTo [0, 1, 2] S_
  h_S_ : 0 < S_.numel

variable [Facts]

def fn {F : FTy → Type} [FloatOps F] (main_arg0 : FVec F S2x64x512 .f32) : IVec S_ 1 :=
  let main_v0 : FVec F S2x64x512 .f32 := Host.absf main_arg0
  let main_cst : FVec F S_ .f32 := constant S_ .f32 0x7F800000#32
  let main_v1 : FVec F S2x64x512 .f32 := broadcastInDim S2x64x512 ![] bcast_S_S2x64x512 main_cst
  let main_v2 : IVec S2x64x512 1 := cmpf .olt main_v0 main_v1
  let main_c : IVec S_ 1 := constantI S_ 1 1#1
  let main_v3 : IVec S_ 1 := (fun x v => Host.reduce IntOp.andi x v reducesTo_S2x64x512_S_d0_1_2 h_S_) main_v2 main_c
  main_v3
-- ==== Kernel.lean ====
abbrev S2x64x512 : Shape := ⟨3, ![2, 64, 512]⟩
abbrev S_ : Shape := ⟨0, ![]⟩
abbrev S2x64x767 : Shape := ⟨3, ![2, 64, 767]⟩
abbrev S2x512x64x256 : Shape := ⟨4, ![2, 512, 64, 256]⟩
abbrev S2x128x64x256 : Shape := ⟨4, ![2, 128, 64, 256]⟩
abbrev S2x64x383 : Shape := ⟨3, ![2, 64, 383]⟩
abbrev S2x64x256 : Shape := ⟨3, ![2, 64, 256]⟩
abbrev S2x1x64x256 : Shape := ⟨4, ![2, 1, 64, 256]⟩
abbrev S2x64x1535 : Shape := ⟨3, ![2, 64, 1535]⟩
abbrev S2x512x64x1024 : Shape := ⟨4, ![2, 512, 64, 1024]⟩
abbrev S2x64x1023 : Shape := ⟨3, ![2, 64, 1023]⟩
abbrev S2x512x64x512 : Shape := ⟨4, ![2, 512, 64, 512]⟩

abbrev nBuf : Space → Nat
  | .hbm => 13
  | .vmem => 9
  | .smem => 0
  | _ => 0

abbrev bufTy : (tb : Table) → Fin (tcTables nBuf tb) → BufTy
  | .hbm, ⟨0, _⟩ => ⟨S2x64x512, .f32⟩
  | .hbm, ⟨1, _⟩ => ⟨S_, .i32⟩
  | .hbm, ⟨2, _⟩ => ⟨S_, .f32⟩
  | .hbm, ⟨3, _⟩ => ⟨S2x64x767, .f32⟩
  | .hbm, ⟨4, _⟩ => ⟨S2x512x64x256, .f32⟩
  | .hbm, ⟨5, _⟩ => ⟨S_, .i32⟩
  | .hbm, ⟨6, _⟩ => ⟨S_, .f32⟩
  | .hbm, ⟨7, _⟩ => ⟨S2x64x1535, .f32⟩
  | .hbm, ⟨8, _⟩ => ⟨S2x512x64x1024, .f32⟩
  | .hbm, ⟨9, _⟩ => ⟨S_, .i32⟩
  | .hbm, ⟨10, _⟩ => ⟨S_, .f32⟩
  | .hbm, ⟨11, _⟩ => ⟨S2x64x1023, .f32⟩
  | .hbm, ⟨12, _⟩ => ⟨S2x512x64x512, .f32⟩
  | .local _ .vmem, ⟨0, _⟩ => ⟨S2x64x767, .f32⟩
  | .local _ .vmem, ⟨1, _⟩ => ⟨S2x128x64x256, .f32⟩
  | .local _ .vmem, ⟨2, _⟩ => ⟨S2x128x64x256, .f32⟩
  | .local _ .vmem, ⟨3, _⟩ => ⟨S2x64x1535, .f32⟩
  | .local _ .vmem, ⟨4, _⟩ => ⟨S2x128x64x256, .f32⟩
  | .local _ .vmem, ⟨5, _⟩ => ⟨S2x128x64x256, .f32⟩
  | .local _ .vmem, ⟨6, _⟩ => ⟨S2x64x1023, .f32⟩
  | .local _ .vmem, ⟨7, _⟩ => ⟨S2x128x64x256, .f32⟩
  | .local _ .vmem, ⟨8, _⟩ => ⟨S2x128x64x256, .f32⟩
  | _, _ => ⟨S2x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call1_v0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call2_v0 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg1_1 : Ref sig .tc := ⟨.vmem, 8, rfl⟩
abbrev cc0_sem0_0 : DmaSem sig := 0
abbrev cc0_sem1_0 : DmaSem sig := 1
abbrev cc0_sem1_1 : DmaSem sig := 2
abbrev cc1_sem0_0 : DmaSem sig := 3
abbrev cc1_sem1_0 : DmaSem sig := 4
abbrev cc1_sem1_1 : DmaSem sig := 5
abbrev cc2_sem0_0 : DmaSem sig := 6
abbrev cc2_sem1_0 : DmaSem sig := 7
abbrev cc2_sem1_1 : DmaSem sig := 8

abbrev nD : Nat := 1
abbrev τ : Topo := Topo.v7x

variable {F : FTy → Type} [FloatOps F]

abbrev grid0 : Pipeline.Grid := ⟨2, ![4, 1], ![false, false]⟩

def k0_mult1 (i : grid0.Coords) : BitVec 32 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c256_i32 : BitVec 32 := 256#32
  let v1 : BitVec 32 := Scalar.muli arg1 c256_i32
  let v2 : BitVec 32 := Scalar.addi v0 v1
  v2
def k0_off1 (i : grid0.Coords) : Fin 3 → Nat :=
  let c0 : Index := 0#32
  let c0_0 : Index := 0#32
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c256_i32 : BitVec 32 := 256#32
  let v1 : BitVec 32 := Scalar.muli arg1 c256_i32
  let v2 : BitVec 32 := Scalar.addi v0 v1
  let v3 : BitVec 32 := v2
  let v4 : Index := Scalar.indexCast v3
  ![0, 0, v4.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 1 → Memref sig .tc .vmem S2x64x767 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2x128x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![4, 4], ![false, false]⟩

def k1_mult1 (i : grid1.Coords) : BitVec 32 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c256_i32 : BitVec 32 := 256#32
  let v1 : BitVec 32 := Scalar.muli arg1 c256_i32
  let v2 : BitVec 32 := Scalar.addi v0 v1
  v2
def k1_off1 (i : grid1.Coords) : Fin 3 → Nat :=
  let c0 : Index := 0#32
  let c0_0 : Index := 0#32
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c256_i32 : BitVec 32 := 256#32
  let v1 : BitVec 32 := Scalar.muli arg1 c256_i32
  let v2 : BitVec 32 := Scalar.addi v0 v1
  let v3 : BitVec 32 := v2
  let v4 : Index := Scalar.indexCast v3
  ![0, 0, v4.toNat]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage1_0 : Fin 1 → Memref sig .tc .vmem S2x64x1535 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2x128x64x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨2, ![4, 2], ![false, false]⟩

def k2_mult1 (i : grid2.Coords) : BitVec 32 :=
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c256_i32 : BitVec 32 := 256#32
  let v1 : BitVec 32 := Scalar.muli arg1 c256_i32
  let v2 : BitVec 32 := Scalar.addi v0 v1
  v2
def k2_off1 (i : grid2.Coords) : Fin 3 → Nat :=
  let c0 : Index := 0#32
  let c0_0 : Index := 0#32
  let arg0 : BitVec 32 := BitVec.ofNat 32 (i 0).val
  let c128_i32 : BitVec 32 := 128#32
  let v0 : BitVec 32 := Scalar.muli arg0 c128_i32
  let arg1 : BitVec 32 := BitVec.ofNat 32 (i 1).val
  let c256_i32 : BitVec 32 := 256#32
  let v1 : BitVec 32 := Scalar.muli arg1 c256_i32
  let v2 : BitVec 32 := Scalar.addi v0 v1
  let v3 : BitVec 32 := v2
  let v4 : Index := Scalar.indexCast v3
  ![0, 0, v4.toNat]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage2_0 : Fin 1 → Memref sig .tc .vmem S2x64x1023 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S2x128x64x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

class Facts₀ : Prop where
  pads_S2x64x512_S2x64x767_000_000_1281270 : S2x64x512.Pads (![0, 0, 128] : Fin 3 → Nat) ![0, 0, 127] ![0, 0, 0] S2x64x767
  h_S_ : 0 < S_.numel
  h_S2x64x383 : 0 < S2x64x383.numel
  shapeCasts_S2x64x383_S2x64x383 : S2x64x383.ShapeCasts S2x64x383
  slices_S2x64x383_o0_0_0_S2x64x256 : S2x64x383.Slices ![0, 0, 0] S2x64x256
  shapeCasts_S2x64x256_S2x1x64x256 : S2x64x256.ShapeCasts S2x1x64x256
  inb_S2x128x64x256_S2x1x64x256_0_0_0_0 : ∀ a, (![0, 0, 0, 0] : Fin 4 → Nat) a + S2x1x64x256.size a ≤ S2x128x64x256.size a
  h_S2x1x64x256 : 0 < S2x1x64x256.numel
  slices_S2x64x383_o0_0_1_S2x64x256 : S2x64x383.Slices ![0, 0, 1] S2x64x256
  inb_S2x128x64x256_S2x1x64x256_0_1_0_0 : ∀ a, (![0, 1, 0, 0] : Fin 4 → Nat) a + S2x1x64x256.size a ≤ S2x128x64x256.size a
  slices_S2x64x383_o0_0_2_S2x64x256 : S2x64x383.Slices ![0, 0, 2] S2x64x256
  inb_S2x128x64x256_S2x1x64x256_0_2_0_0 : ∀ a, (![0, 2, 0, 0] : Fin 4 → Nat) a + S2x1x64x256.size a ≤ S2x128x64x256.size a
  slices_S2x64x383_o0_0_3_S2x64x256 : S2x64x383.Slices ![0, 0, 3] S2x64x256
  inb_S2x128x64x256_S2x1x64x256_0_3_0_0 : ∀ a, (![0, 3, 0, 0] : Fin 4 → Nat) a + S2x1x64x256.size a ≤ S2x128x64x256.size a
  slices_S2x64x383_o0_0_4_S2x64x256 : S2x64x383.Slices ![0, 0, 4] S2x64x256
  inb_S2x128x64x256_S2x1x64x256_0_4_0_0 : ∀ a, (![0, 4, 0, 0] : Fin 4 → Nat) a + S2x1x64x256.size a ≤ S2x128x64x256.size a
  slices_S2x64x383_o0_0_5_S2x64x256 : S2x64x383.Slices ![0, 0, 5] S2x64x256
  inb_S2x128x64x256_S2x1x64x256_0_5_0_0 : ∀ a, (![0, 5, 0, 0] : Fin 4 → Nat) a + S2x1x64x256.size a ≤ S2x128x64x256.size a
  slices_S2x64x383_o0_0_6_S2x64x256 : S2x64x383.Slices ![0, 0, 6] S2x64x256
  inb_S2x128x64x256_S2x1x64x256_0_6_0_0 : ∀ a, (![0, 6, 0, 0] : Fin 4 → Nat) a + S2x1x64x256.size a ≤ S2x128x64x256.size a
  slices_S2x64x383_o0_0_7_S2x64x256 : S2x64x383.Slices ![0, 0, 7] S2x64x256
  inb_S2x128x64x256_S2x1x64x256_0_7_0_0 : ∀ a, (![0, 7, 0, 0] : Fin 4 → Nat) a + S2x1x64x256.size a ≤ S2x128x64x256.size a
  slices_S2x64x383_o0_0_8_S2x64x256 : S2x64x383.Slices ![0, 0, 8] S2x64x256
  inb_S2x128x64x256_S2x1x64x256_0_8_0_0 : ∀ a, (![0, 8, 0, 0] : Fin 4 → Nat) a + S2x1x64x256.size a ≤ S2x128x64x256.size a
  slices_S2x64x383_o0_0_9_S2x64x256 : S2x64x383.Slices ![0, 0, 9] S2x64x256
  inb_S2x128x64x256_S2x1x64x256_0_9_0_0 : ∀ a, (![0, 9, 0, 0] : Fin 4 → Nat) a + S2x1x64x256.size a ≤ S2x128x64x256.size a
  slices_S2x64x383_o0_0_10_S2x64x256 : S2x64x383.Slices ![0, 0, 10] S2x64x256
  inb_S2x128x64x256_S2x1x64x256_0_10_0_0 : ∀ a, (![0, 10, 0, 0] : Fin 4 → Nat) a + S2x1x64x256.size a ≤ S2x128x64x256.size a
  slices_S2x64x383_o0_0_11_S2x64x256 : S2x64x383.Slices ![0, 0, 11] S2x64x256
  inb_S2x128x64x256_S2x1x64x256_0_11_0_0 : ∀ a, (![0, 11, 0, 0] : Fin 4 → Nat) a + S2x1x64x256.size a ≤ S2x128x64x256.size a
  slices_S2x64x383_o0_0_12_S2x64x256 : S2x64x383.Slices ![0, 0, 12] S2x64x256
  inb_S2x128x64x256_S2x1x64x256_0_12_0_0 : ∀ a, (![0, 12, 0, 0] : Fin 4 → Nat) a + S2x1x64x256.size a ≤ S2x128x64x256.size a
  slices_S2x64x383_o0_0_13_S2x64x256 : S2x64x383.Slices ![0, 0, 13] S2x64x256
  inb_S2x128x64x256_S2x1x64x256_0_13_0_0 : ∀ a, (![0, 13, 0, 0] : Fin 4 → Nat) a + S2x1x64x256.size a ≤ S2x128x64x256.size a
  slices_S2x64x383_o0_0_14_S2x64x256 : S2x64x383.Slices ![0, 0, 14] S2x64x256
  inb_S2x128x64x256_S2x1x64x256_0_14_0_0 : ∀ a, (![0, 14, 0, 0] : Fin 4 → Nat) a + S2x1x64x256.size a ≤ S2x128x64x256.size a
  slices_S2x64x383_o0_0_15_S2x64x256 : S2x64x383.Slices ![0, 0, 15] S2x64x256
  inb_S2x128x64x256_S2x1x64x256_0_15_0_0 : ∀ a, (![0, 15, 0, 0] : Fin 4 → Nat) a + S2x1x64x256.size a ≤ S2x128x64x256.size a
  slices_S2x64x383_o0_0_16_S2x64x256 : S2x64x383.Slices ![0, 0, 16] S2x64x256
  inb_S2x128x64x256_S2x1x64x256_0_16_0_0 : ∀ a, (![0, 16, 0, 0] : Fin 4 → Nat) a + S2x1x64x256.size a ≤ S2x128x64x256.size a
  slices_S2x64x383_o0_0_17_S2x64x256 : S2x64x383.Slices ![0, 0, 17] S2x64x256
  inb_S2x128x64x256_S2x1x64x256_0_17_0_0 : ∀ a, (![0, 17, 0, 0] : Fin 4 → Nat) a + S2x1x64x256.size a ≤ S2x128x64x256.size a
  slices_S2x64x383_o0_0_18_S2x64x256 : S2x64x383.Slices ![0, 0, 18] S2x64x256
  inb_S2x128x64x256_S2x1x64x256_0_18_0_0 : ∀ a, (![0, 18, 0, 0] : Fin 4 → Nat) a + S2x1x64x256.size a ≤ S2x128x64x256.size a
  slices_S2x64x383_o0_0_19_S2x64x256 : S2x64x383.Slices ![0, 0, 19] S2x64x256
  inb_S2x128x64x256_S2x1x64x256_0_19_0_0 : ∀ a, (![0, 19, 0, 0] : Fin 4 → Nat) a + S2x1x64x256.size a ≤ S2x128x64x256.size a
  slices_S2x64x383_o0_0_20_S2x64x256 : S2x64x383.Slices ![0, 0, 20] S2x64x256
  inb_S2x128x64x256_S2x1x64x256_0_20_0_0 : ∀ a, (![0, 20, 0, 0] : Fin 4 → Nat) a + S2x1x64x256.size a ≤ S2x128x64x256.size a
  slices_S2x64x383_o0_0_21_S2x64x256 : S2x64x383.Slices ![0, 0, 21] S2x64x256
  inb_S2x128x64x256_S2x1x64x256_0_21_0_0 : ∀ a, (![0, 21, 0, 0] : Fin 4 → Nat) a + S2x1x64x256.size a ≤ S2x128x64x256.size a
  slices_S2x64x383_o0_0_22_S2x64x256 : S2x64x383.Slices ![0, 0, 22] S2x64x256
  inb_S2x128x64x256_S2x1x64x256_0_22_0_0 : ∀ a, (![0, 22, 0, 0] : Fin 4 → Nat) a + S2x1x64x256.size a ≤ S2x128x64x256.size a
  slices_S2x64x383_o0_0_23_S2x64x256 : S2x64x383.Slices ![0, 0, 23] S2x64x256
  inb_S2x128x64x256_S2x1x64x256_0_23_0_0 : ∀ a, (![0, 23, 0, 0] : Fin 4 → Nat) a + S2x1x64x256.size a ≤ S2x128x64x256.size a
  slices_S2x64x383_o0_0_24_S2x64x256 : S2x64x383.Slices ![0, 0, 24] S2x64x256
  inb_S2x128x64x256_S2x1x64x256_0_24_0_0 : ∀ a, (![0, 24, 0, 0] : Fin 4 → Nat) a + S2x1x64x256.size a ≤ S2x128x64x256.size a
  slices_S2x64x383_o0_0_25_S2x64x256 : S2x64x383.Slices ![0, 0, 25] S2x64x256
  inb_S2x128x64x256_S2x1x64x256_0_25_0_0 : ∀ a, (![0, 25, 0, 0] : Fin 4 → Nat) a + S2x1x64x256.size a ≤ S2x128x64x256.size a
  slices_S2x64x383_o0_0_26_S2x64x256 : S2x64x383.Slices ![0, 0, 26] S2x64x256
  inb_S2x128x64x256_S2x1x64x256_0_26_0_0 : ∀ a, (![0, 26, 0, 0] : Fin 4 → Nat) a + S2x1x64x256.size a ≤ S2x128x64x256.size a
  slices_S2x64x383_o0_0_27_S2x64x256 : S2x64x383.Slices ![0, 0, 27] S2x64x256
  inb_S2x128x64x256_S2x1x64x256_0_27_0_0 : ∀ a, (![0, 27, 0, 0] : Fin 4 → Nat) a + S2x1x64x256.size a ≤ S2x128x64x256.size a
  slices_S2x64x383_o0_0_28_S2x64x256 : S2x64x383.Slices ![0, 0, 28] S2x64x256
  inb_S2x128x64x256_S2x1x64x256_0_28_0_0 : ∀ a, (![0, 28, 0, 0] : Fin 4 → Nat) a + S2x1x64x256.size a ≤ S2x128x64x256.size a
  slices_S2x64x383_o0_0_29_S2x64x256 : S2x64x383.Slices ![0, 0, 29] S2x64x256
  inb_S2x128x64x256_S2x1x64x256_0_29_0_0 : ∀ a, (![0, 29, 0, 0] : Fin 4 → Nat) a + S2x1x64x256.size a ≤ S2x128x64x256.size a
  slices_S2x64x383_o0_0_30_S2x64x256 : S2x64x383.Slices ![0, 0, 30] S2x64x256
  inb_S2x128x64x256_S2x1x64x256_0_30_0_0 : ∀ a, (![0, 30, 0, 0] : Fin 4 → Nat) a + S2x1x64x256.size a ≤ S2x128x64x256.size a
  slices_S2x64x383_o0_0_31_S2x64x256 : S2x64x383.Slices ![0, 0, 31] S2x64x256
  inb_S2x128x64x256_S2x1x64x256_0_31_0_0 : ∀ a, (![0, 31, 0, 0] : Fin 4 → Nat) a + S2x1x64x256.size a ≤ S2x128x64x256.size a
  slices_S2x64x383_o0_0_32_S2x64x256 : S2x64x383.Slices ![0, 0, 32] S2x64x256
  inb_S2x128x64x256_S2x1x64x256_0_32_0_0 : ∀ a, (![0, 32, 0, 0] : Fin 4 → Nat) a + S2x1x64x256.size a ≤ S2x128x64x256.size a
  slices_S2x64x383_o0_0_33_S2x64x256 : S2x64x383.Slices ![0, 0, 33] S2x64x256
  inb_S2x128x64x256_S2x1x64x256_0_33_0_0 : ∀ a, (![0, 33, 0, 0] : Fin 4 → Nat) a + S2x1x64x256.size a ≤ S2x128x64x256.size a
  slices_S2x64x383_o0_0_34_S2x64x256 : S2x64x383.Slices ![0, 0, 34] S2x64x256
  inb_S2x128x64x256_S2x1x64x256_0_34_0_0 : ∀ a, (![0, 34, 0, 0] : Fin 4 → Nat) a + S2x1x64x256.size a ≤ S2x128x64x256.size a
  slices_S2x64x383_o0_0_35_S2x64x256 : S2x64x383.Slices ![0, 0, 35] S2x64x256
  inb_S2x128x64x256_S2x1x64x256_0_35_0_0 : ∀ a, (![0, 35, 0, 0] : Fin 4 → Nat) a + S2x1x64x256.size a ≤ S2x128x64x256.size a
  slices_S2x64x383_o0_0_36_S2x64x256 : S2x64x383.Slices ![0, 0, 36] S2x64x256
  inb_S2x128x64x256_S2x1x64x256_0_36_0_0 : ∀ a, (![0, 36, 0, 0] : Fin 4 → Nat) a + S2x1x64x256.size a ≤ S2x128x64x256.size a
  slices_S2x64x383_o0_0_37_S2x64x256 : S2x64x383.Slices ![0, 0, 37] S2x64x256
  inb_S2x128x64x256_S2x1x64x256_0_37_0_0 : ∀ a, (![0, 37, 0, 0] : Fin 4 → Nat) a + S2x1x64x256.size a ≤ S2x128x64x256.size a
  slices_S2x64x383_o0_0_38_S2x64x256 : S2x64x383.Slices ![0, 0, 38] S2x64x256
  inb_S2x128x64x256_S2x1x64x256_0_38_0_0 : ∀ a, (![0, 38, 0, 0] : Fin 4 → Nat) a + S2x1x64x256.size a ≤ S2x128x64x256.size a
  slices_S2x64x383_o0_0_39_S2x64x256 : S2x64x383.Slices ![0, 0, 39] S2x64x256
  inb_S2x128x64x256_S2x1x64x256_0_39_0_0 : ∀ a, (![0, 39, 0, 0] : Fin 4 → Nat) a + S2x1x64x256.size a ≤ S2x128x64x256.size a
  slices_S2x64x383_o0_0_40_S2x64x256 : S2x64x383.Slices ![0, 0, 40] S2x64x256
  inb_S2x128x64x256_S2x1x64x256_0_40_0_0 : ∀ a, (![0, 40, 0, 0] : Fin 4 → Nat) a + S2x1x64x256.size a ≤ S2x128x64x256.size a
  slices_S2x64x383_o0_0_41_S2x64x256 : S2x64x383.Slices ![0, 0, 41] S2x64x256
  inb_S2x128x64x256_S2x1x64x256_0_41_0_0 : ∀ a, (![0, 41, 0, 0] : Fin 4 → Nat) a + S2x1x64x256.size a ≤ S2x128x64x256.size a
  slices_S2x64x383_o0_0_42_S2x64x256 : S2x64x383.Slices ![0, 0, 42] S2x64x256
  inb_S2x128x64x256_S2x1x64x256_0_42_0_0 : ∀ a, (![0, 42, 0, 0] : Fin 4 → Nat) a + S2x1x64x256.size a ≤ S2x128x64x256.size a
  slices_S2x64x383_o0_0_43_S2x64x256 : S2x64x383.Slices ![0, 0, 43] S2x64x256
  inb_S2x128x64x256_S2x1x64x256_0_43_0_0 : ∀ a, (![0, 43, 0, 0] : Fin 4 → Nat) a + S2x1x64x256.size a ≤ S2x128x64x256.size a
  slices_S2x64x383_o0_0_44_S2x64x256 : S2x64x383.Slices ![0, 0, 44] S2x64x256
  inb_S2x128x64x256_S2x1x64x256_0_44_0_0 : ∀ a, (![0, 44, 0, 0] : Fin 4 → Nat) a + S2x1x64x256.size a ≤ S2x128x64x256.size a
  slices_S2x64x383_o0_0_45_S2x64x256 : S2x64x383.Slices ![0, 0, 45] S2x64x256
  inb_S2x128x64x256_S2x1x64x256_0_45_0_0 : ∀ a, (![0, 45, 0, 0] : Fin 4 → Nat) a + S2x1x64x256.size a ≤ S2x128x64x256.size a
  slices_S2x64x383_o0_0_46_S2x64x256 : S2x64x383.Slices ![0, 0, 46] S2x64x256
  inb_S2x128x64x256_S2x1x64x256_0_46_0_0 : ∀ a, (![0, 46, 0, 0] : Fin 4 → Nat) a + S2x1x64x256.size a ≤ S2x128x64x256.size a
  slices_S2x64x383_o0_0_47_S2x64x256 : S2x64x383.Slices ![0, 0, 47] S2x64x256
  inb_S2x128x64x256_S2x1x64x256_0_47_0_0 : ∀ a, (![0, 47, 0, 0] : Fin 4 → Nat) a + S2x1x64x256.size a ≤ S2x128x64x256.size a
  slices_S2x64x383_o0_0_48_S2x64x256 : S2x64x383.Slices ![0, 0, 48] S2x64x256
  inb_S2x128x64x256_S2x1x64x256_0_48_0_0 : ∀ a, (![0, 48, 0, 0] : Fin 4 → Nat) a + S2x1x64x256.size a ≤ S2x128x64x256.size a
  slices_S2x64x383_o0_0_49_S2x64x256 : S2x64x383.Slices ![0, 0, 49] S2x64x256
  inb_S2x128x64x256_S2x1x64x256_0_49_0_0 : ∀ a, (![0, 49, 0, 0] : Fin 4 → Nat) a + S2x1x64x256.size a ≤ S2x128x64x256.size a
  slices_S2x64x383_o0_0_50_S2x64x256 : S2x64x383.Slices ![0, 0, 50] S2x64x256
  inb_S2x128x64x256_S2x1x64x256_0_50_0_0 : ∀ a, (![0, 50, 0, 0] : Fin 4 → Nat) a + S2x1x64x256.size a ≤ S2x128x64x256.size a
  slices_S2x64x383_o0_0_51_S2x64x256 : S2x64x383.Slices ![0, 0, 51] S2x64x256
  inb_S2x128x64x256_S2x1x64x256_0_51_0_0 : ∀ a, (![0, 51, 0, 0] : Fin 4 → Nat) a + S2x1x64x256.size a ≤ S2x128x64x256.size a
  slices_S2x64x383_o0_0_52_S2x64x256 : S2x64x383.Slices ![0, 0, 52] S2x64x256
  inb_S2x128x64x256_S2x1x64x256_0_52_0_0 : ∀ a, (![0, 52, 0, 0] : Fin 4 → Nat) a + S2x1x64x256.size a ≤ S2x128x64x256.size a
  slices_S2x64x383_o0_0_53_S2x64x256 : S2x64x383.Slices ![0, 0, 53] S2x64x256
  inb_S2x128x64x256_S2x1x64x256_0_53_0_0 : ∀ a, (![0, 53, 0, 0] : Fin 4 → Nat) a + S2x1x64x256.size a ≤ S2x128x64x256.size a
  slices_S2x64x383_o0_0_54_S2x64x256 : S2x64x383.Slices ![0, 0, 54] S2x64x256
  inb_S2x128x64x256_S2x1x64x256_0_54_0_0 : ∀ a, (![0, 54, 0, 0] : Fin 4 → Nat) a + S2x1x64x256.size a ≤ S2x128x64x256.size a
  slices_S2x64x383_o0_0_55_S2x64x256 : S2x64x383.Slices ![0, 0, 55] S2x64x256
  inb_S2x128x64x256_S2x1x64x256_0_55_0_0 : ∀ a, (![0, 55, 0, 0] : Fin 4 → Nat) a + S2x1x64x256.size a ≤ S2x128x64x256.size a
  slices_S2x64x383_o0_0_56_S2x64x256 : S2x64x383.Slices ![0, 0, 56] S2x64x256
  inb_S2x128x64x256_S2x1x64x256_0_56_0_0 : ∀ a, (![0, 56, 0, 0] : Fin 4 → Nat) a + S2x1x64x256.size a ≤ S2x128x64x256.size a
  slices_S2x64x383_o0_0_57_S2x64x256 : S2x64x383.Slices ![0, 0, 57] S2x64x256
  inb_S2x128x64x256_S2x1x64x256_0_57_0_0 : ∀ a, (![0, 57, 0, 0] : Fin 4 → Nat) a + S2x1x64x256.size a ≤ S2x128x64x256.size a
  slices_S2x64x383_o0_0_58_S2x64x256 : S2x64x383.Slices ![0, 0, 58] S2x64x256
  inb_S2x128x64x256_S2x1x64x256_0_58_0_0 : ∀ a, (![0, 58, 0, 0] : Fin 4 → Nat) a + S2x1x64x256.size a ≤ S2x128x64x256.size a
  slices_S2x64x383_o0_0_59_S2x64x256 : S2x64x383.Slices ![0, 0, 59] S2x64x256
  inb_S2x128x64x256_S2x1x64x256_0_59_0_0 : ∀ a, (![0, 59, 0, 0] : Fin 4 → Nat) a + S2x1x64x256.size a ≤ S2x128x64x256.size a
  slices_S2x64x383_o0_0_60_S2x64x256 : S2x64x383.Slices ![0, 0, 60] S2x64x256
  inb_S2x128x64x256_S2x1x64x256_0_60_0_0 : ∀ a, (![0, 60, 0, 0] : Fin 4 → Nat) a + S2x1x64x256.size a ≤ S2x128x64x256.size a
  slices_S2x64x383_o0_0_61_S2x64x256 : S2x64x383.Slices ![0, 0, 61] S2x64x256
  inb_S2x128x64x256_S2x1x64x256_0_61_0_0 : ∀ a, (![0, 61, 0, 0] : Fin 4 → Nat) a + S2x1x64x256.size a ≤ S2x128x64x256.size a
  slices_S2x64x383_o0_0_62_S2x64x256 : S2x64x383.Slices ![0, 0, 62] S2x64x256
  inb_S2x128x64x256_S2x1x64x256_0_62_0_0 : ∀ a, (![0, 62, 0, 0] : Fin 4 → Nat) a + S2x1x64x256.size a ≤ S2x128x64x256.size a
  slices_S2x64x383_o0_0_63_S2x64x256 : S2x64x383.Slices ![0, 0, 63] S2x64x256
  inb_S2x128x64x256_S2x1x64x256_0_63_0_0 : ∀ a, (![0, 63, 0, 0] : Fin 4 → Nat) a + S2x1x64x256.size a ≤ S2x128x64x256.size a
  slices_S2x64x383_o0_0_64_S2x64x256 : S2x64x383.Slices ![0, 0, 64] S2x64x256
  inb_S2x128x64x256_S2x1x64x256_0_64_0_0 : ∀ a, (![0, 64, 0, 0] : Fin 4 → Nat) a + S2x1x64x256.size a ≤ S2x128x64x256.size a
  slices_S2x64x383_o0_0_65_S2x64x256 : S2x64x383.Slices ![0, 0, 65] S2x64x256
  inb_S2x128x64x256_S2x1x64x256_0_65_0_0 : ∀ a, (![0, 65, 0, 0] : Fin 4 → Nat) a + S2x1x64x256.size a ≤ S2x128x64x256.size a
  slices_S2x64x383_o0_0_66_S2x64x256 : S2x64x383.Slices ![0, 0, 66] S2x64x256
  inb_S2x128x64x256_S2x1x64x256_0_66_0_0 : ∀ a, (![0, 66, 0, 0] : Fin 4 → Nat) a + S2x1x64x256.size a ≤ S2x128x64x256.size a
  slices_S2x64x383_o0_0_67_S2x64x256 : S2x64x383.Slices ![0, 0, 67] S2x64x256
  inb_S2x128x64x256_S2x1x64x256_0_67_0_0 : ∀ a, (![0, 67, 0, 0] : Fin 4 → Nat) a + S2x1x64x256.size a ≤ S2x128x64x256.size a
  slices_S2x64x383_o0_0_68_S2x64x256 : S2x64x383.Slices ![0, 0, 68] S2x64x256
  inb_S2x128x64x256_S2x1x64x256_0_68_0_0 : ∀ a, (![0, 68, 0, 0] : Fin 4 → Nat) a + S2x1x64x256.size a ≤ S2x128x64x256.size a
  slices_S2x64x383_o0_0_69_S2x64x256 : S2x64x383.Slices ![0, 0, 69] S2x64x256
  inb_S2x128x64x256_S2x1x64x256_0_69_0_0 : ∀ a, (![0, 69, 0, 0] : Fin 4 → Nat) a + S2x1x64x256.size a ≤ S2x128x64x256.size a
  slices_S2x64x383_o0_0_70_S2x64x256 : S2x64x383.Slices ![0, 0, 70] S2x64x256
  inb_S2x128x64x256_S2x1x64x256_0_70_0_0 : ∀ a, (![0, 70, 0, 0] : Fin 4 → Nat) a + S2x1x64x256.size a ≤ S2x128x64x256.size a
  slices_S2x64x383_o0_0_71_S2x64x256 : S2x64x383.Slices ![0, 0, 71] S2x64x256
  inb_S2x128x64x256_S2x1x64x256_0_71_0_0 : ∀ a, (![0, 71, 0, 0] : Fin 4 → Nat) a + S2x1x64x256.size a ≤ S2x128x64x256.size a
  slices_S2x64x383_o0_0_72_S2x64x256 : S2x64x383.Slices ![0, 0, 72] S2x64x256
  inb_S2x128x64x256_S2x1x64x256_0_72_0_0 : ∀ a, (![0, 72, 0, 0] : Fin 4 → Nat) a + S2x1x64x256.size a ≤ S2x128x64x256.size a
  slices_S2x64x383_o0_0_73_S2x64x256 : S2x64x383.Slices ![0, 0, 73] S2x64x256
  inb_S2x128x64x256_S2x1x64x256_0_73_0_0 : ∀ a, (![0, 73, 0, 0] : Fin 4 → Nat) a + S2x1x64x256.size a ≤ S2x128x64x256.size a
  slices_S2x64x383_o0_0_74_S2x64x256 : S2x64x383.Slices ![0, 0, 74] S2x64x256
  inb_S2x128x64x256_S2x1x64x256_0_74_0_0 : ∀ a, (![0, 74, 0, 0] : Fin 4 → Nat) a + S2x1x64x256.size a ≤ S2x128x64x256.size a
  slices_S2x64x383_o0_0_75_S2x64x256 : S2x64x383.Slices ![0, 0, 75] S2x64x256
  inb_S2x128x64x256_S2x1x64x256_0_75_0_0 : ∀ a, (![0, 75, 0, 0] : Fin 4 → Nat) a + S2x1x64x256.size a ≤ S2x128x64x256.size a
  slices_S2x64x383_o0_0_76_S2x64x256 : S2x64x383.Slices ![0, 0, 76] S2x64x256
  inb_S2x128x64x256_S2x1x64x256_0_76_0_0 : ∀ a, (![0, 76, 0, 0] : Fin 4 → Nat) a + S2x1x64x256.size a ≤ S2x128x64x256.size a
  slices_S2x64x383_o0_0_77_S2x64x256 : S2x64x383.Slices ![0, 0, 77] S2x64x256
  inb_S2x128x64x256_S2x1x64x256_0_77_0_0 : ∀ a, (![0, 77, 0, 0] : Fin 4 → Nat) a + S2x1x64x256.size a ≤ S2x128x64x256.size a
  slices_S2x64x383_o0_0_78_S2x64x256 : S2x64x383.Slices ![0, 0, 78] S2x64x256
  inb_S2x128x64x256_S2x1x64x256_0_78_0_0 : ∀ a, (![0, 78, 0, 0] : Fin 4 → Nat) a + S2x1x64x256.size a ≤ S2x128x64x256.size a
  slices_S2x64x383_o0_0_79_S2x64x256 : S2x64x383.Slices ![0, 0, 79] S2x64x256
  inb_S2x128x64x256_S2x1x64x256_0_79_0_0 : ∀ a, (![0, 79, 0, 0] : Fin 4 → Nat) a + S2x1x64x256.size a ≤ S2x128x64x256.size a
  slices_S2x64x383_o0_0_80_S2x64x256 : S2x64x383.Slices ![0, 0, 80] S2x64x256
  inb_S2x128x64x256_S2x1x64x256_0_80_0_0 : ∀ a, (![0, 80, 0, 0] : Fin 4 → Nat) a + S2x1x64x256.size a ≤ S2x128x64x256.size a
  slices_S2x64x383_o0_0_81_S2x64x256 : S2x64x383.Slices ![0, 0, 81] S2x64x256
  inb_S2x128x64x256_S2x1x64x256_0_81_0_0 : ∀ a, (![0, 81, 0, 0] : Fin 4 → Nat) a + S2x1x64x256.size a ≤ S2x128x64x256.size a
  slices_S2x64x383_o0_0_82_S2x64x256 : S2x64x383.Slices ![0, 0, 82] S2x64x256
  inb_S2x128x64x256_S2x1x64x256_0_82_0_0 : ∀ a, (![0, 82, 0, 0] : Fin 4 → Nat) a + S2x1x64x256.size a ≤ S2x128x64x256.size a
  slices_S2x64x383_o0_0_83_S2x64x256 : S2x64x383.Slices ![0, 0, 83] S2x64x256
  inb_S2x128x64x256_S2x1x64x256_0_83_0_0 : ∀ a, (![0, 83, 0, 0] : Fin 4 → Nat) a + S2x1x64x256.size a ≤ S2x128x64x256.size a
  slices_S2x64x383_o0_0_84_S2x64x256 : S2x64x383.Slices ![0, 0, 84] S2x64x256
  inb_S2x128x64x256_S2x1x64x256_0_84_0_0 : ∀ a, (![0, 84, 0, 0] : Fin 4 → Nat) a + S2x1x64x256.size a ≤ S2x128x64x256.size a
  slices_S2x64x383_o0_0_85_S2x64x256 : S2x64x383.Slices ![0, 0, 85] S2x64x256
  inb_S2x128x64x256_S2x1x64x256_0_85_0_0 : ∀ a, (![0, 85, 0, 0] : Fin 4 → Nat) a + S2x1x64x256.size a ≤ S2x128x64x256.size a
  slices_S2x64x383_o0_0_86_S2x64x256 : S2x64x383.Slices ![0, 0, 86] S2x64x256
  inb_S2x128x64x256_S2x1x64x256_0_86_0_0 : ∀ a, (![0, 86, 0, 0] : Fin 4 → Nat) a + S2x1x64x256.size a ≤ S2x128x64x256.size a
  slices_S2x64x383_o0_0_87_S2x64x256 : S2x64x383.Slices ![0, 0, 87] S2x64x256
  inb_S2x128x64x256_S2x1x64x256_0_87_0_0 : ∀ a, (![0, 87, 0, 0] : Fin 4 → Nat) a + S2x1x64x256.size a ≤ S2x128x64x256.size a
  slices_S2x64x383_o0_0_88_S2x64x256 : S2x64x383.Slices ![0, 0, 88] S2x64x256
  inb_S2x128x64x256_S2x1x64x256_0_88_0_0 : ∀ a, (![0, 88, 0, 0] : Fin 4 → Nat) a + S2x1x64x256.size a ≤ S2x128x64x256.size a
  slices_S2x64x383_o0_0_89_S2x64x256 : S2x64x383.Slices ![0, 0, 89] S2x64x256
  inb_S2x128x64x256_S2x1x64x256_0_89_0_0 : ∀ a, (![0, 89, 0, 0] : Fin 4 → Nat) a + S2x1x64x256.size a ≤ S2x128x64x256.size a
  slices_S2x64x383_o0_0_90_S2x64x256 : S2x64x383.Slices ![0, 0, 90] S2x64x256
  inb_S2x128x64x256_S2x1x64x256_0_90_0_0 : ∀ a, (![0, 90, 0, 0] : Fin 4 → Nat) a + S2x1x64x256.size a ≤ S2x128x64x256.size a
  slices_S2x64x383_o0_0_91_S2x64x256 : S2x64x383.Slices ![0, 0, 91] S2x64x256
  inb_S2x128x64x256_S2x1x64x256_0_91_0_0 : ∀ a, (![0, 91, 0, 0] : Fin 4 → Nat) a + S2x1x64x256.size a ≤ S2x128x64x256.size a
  slices_S2x64x383_o0_0_92_S2x64x256 : S2x64x383.Slices ![0, 0, 92] S2x64x256
  inb_S2x128x64x256_S2x1x64x256_0_92_0_0 : ∀ a, (![0, 92, 0, 0] : Fin 4 → Nat) a + S2x1x64x256.size a ≤ S2x128x64x256.size a
  slices_S2x64x383_o0_0_93_S2x64x256 : S2x64x383.Slices ![0, 0, 93] S2x64x256
  inb_S2x128x64x256_S2x1x64x256_0_93_0_0 : ∀ a, (![0, 93, 0, 0] : Fin 4 → Nat) a + S2x1x64x256.size a ≤ S2x128x64x256.size a
  slices_S2x64x383_o0_0_94_S2x64x256 : S2x64x383.Slices ![0, 0, 94] S2x64x256
  inb_S2x128x64x256_S2x1x64x256_0_94_0_0 : ∀ a, (![0, 94, 0, 0] : Fin 4 → Nat) a + S2x1x64x256.size a ≤ S2x128x64x256.size a
  slices_S2x64x383_o0_0_95_S2x64x256 : S2x64x383.Slices ![0, 0, 95] S2x64x256
  inb_S2x128x64x256_S2x1x64x256_0_95_0_0 : ∀ a, (![0, 95, 0, 0] : Fin 4 → Nat) a + S2x1x64x256.size a ≤ S2x128x64x256.size a
  slices_S2x64x383_o0_0_96_S2x64x256 : S2x64x383.Slices ![0, 0, 96] S2x64x256
  inb_S2x128x64x256_S2x1x64x256_0_96_0_0 : ∀ a, (![0, 96, 0, 0] : Fin 4 → Nat) a + S2x1x64x256.size a ≤ S2x128x64x256.size a
  slices_S2x64x383_o0_0_97_S2x64x256 : S2x64x383.Slices ![0, 0, 97] S2x64x256
  inb_S2x128x64x256_S2x1x64x256_0_97_0_0 : ∀ a, (![0, 97, 0, 0] : Fin 4 → Nat) a + S2x1x64x256.size a ≤ S2x128x64x256.size a
  slices_S2x64x383_o0_0_98_S2x64x256 : S2x64x383.Slices ![0, 0, 98] S2x64x256
  inb_S2x128x64x256_S2x1x64x256_0_98_0_0 : ∀ a, (![0, 98, 0, 0] : Fin 4 → Nat) a + S2x1x64x256.size a ≤ S2x128x64x256.size a
  slices_S2x64x383_o0_0_99_S2x64x256 : S2x64x383.Slices ![0, 0, 99] S2x64x256
  inb_S2x128x64x256_S2x1x64x256_0_99_0_0 : ∀ a, (![0, 99, 0, 0] : Fin 4 → Nat) a + S2x1x64x256.size a ≤ S2x128x64x256.size a
  slices_S2x64x383_o0_0_100_S2x64x256 : S2x64x383.Slices ![0, 0, 100] S2x64x256
  inb_S2x128x64x256_S2x1x64x256_0_100_0_0 : ∀ a, (![0, 100, 0, 0] : Fin 4 → Nat) a + S2x1x64x256.size a ≤ S2x128x64x256.size a
  slices_S2x64x383_o0_0_101_S2x64x256 : S2x64x383.Slices ![0, 0, 101] S2x64x256
  inb_S2x128x64x256_S2x1x64x256_0_101_0_0 : ∀ a, (![0, 101, 0, 0] : Fin 4 → Nat) a + S2x1x64x256.size a ≤ S2x128x64x256.size a
  slices_S2x64x383_o0_0_102_S2x64x256 : S2x64x383.Slices ![0, 0, 102] S2x64x256
  inb_S2x128x64x256_S2x1x64x256_0_102_0_0 : ∀ a, (![0, 102, 0, 0] : Fin 4 → Nat) a + S2x1x64x256.size a ≤ S2x128x64x256.size a
  slices_S2x64x383_o0_0_103_S2x64x256 : S2x64x383.Slices ![0, 0, 103] S2x64x256
  inb_S2x128x64x256_S2x1x64x256_0_103_0_0 : ∀ a, (![0, 103, 0, 0] : Fin 4 → Nat) a + S2x1x64x256.size a ≤ S2x128x64x256.size a
  slices_S2x64x383_o0_0_104_S2x64x256 : S2x64x383.Slices ![0, 0, 104] S2x64x256
  inb_S2x128x64x256_S2x1x64x256_0_104_0_0 : ∀ a, (![0, 104, 0, 0] : Fin 4 → Nat) a + S2x1x64x256.size a ≤ S2x128x64x256.size a
  slices_S2x64x383_o0_0_105_S2x64x256 : S2x64x383.Slices ![0, 0, 105] S2x64x256
  inb_S2x128x64x256_S2x1x64x256_0_105_0_0 : ∀ a, (![0, 105, 0, 0] : Fin 4 → Nat) a + S2x1x64x256.size a ≤ S2x128x64x256.size a
  slices_S2x64x383_o0_0_106_S2x64x256 : S2x64x383.Slices ![0, 0, 106] S2x64x256
  inb_S2x128x64x256_S2x1x64x256_0_106_0_0 : ∀ a, (![0, 106, 0, 0] : Fin 4 → Nat) a + S2x1x64x256.size a ≤ S2x128x64x256.size a
  slices_S2x64x383_o0_0_107_S2x64x256 : S2x64x383.Slices ![0, 0, 107] S2x64x256
  inb_S2x128x64x256_S2x1x64x256_0_107_0_0 : ∀ a, (![0, 107, 0, 0] : Fin 4 → Nat) a + S2x1x64x256.size a ≤ S2x128x64x256.size a
  slices_S2x64x383_o0_0_108_S2x64x256 : S2x64x383.Slices ![0, 0, 108] S2x64x256
  inb_S2x128x64x256_S2x1x64x256_0_108_0_0 : ∀ a, (![0, 108, 0, 0] : Fin 4 → Nat) a + S2x1x64x256.size a ≤ S2x128x64x256.size a
  slices_S2x64x383_o0_0_109_S2x64x256 : S2x64x383.Slices ![0, 0, 109] S2x64x256
  inb_S2x128x64x256_S2x1x64x256_0_109_0_0 : ∀ a, (![0, 109, 0, 0] : Fin 4 → Nat) a + S2x1x64x256.size a ≤ S2x128x64x256.size a
  slices_S2x64x383_o0_0_110_S2x64x256 : S2x64x383.Slices ![0, 0, 110] S2x64x256
  inb_S2x128x64x256_S2x1x64x256_0_110_0_0 : ∀ a, (![0, 110, 0, 0] : Fin 4 → Nat) a + S2x1x64x256.size a ≤ S2x128x64x256.size a
  slices_S2x64x383_o0_0_111_S2x64x256 : S2x64x383.Slices ![0, 0, 111] S2x64x256
  inb_S2x128x64x256_S2x1x64x256_0_111_0_0 : ∀ a, (![0, 111, 0, 0] : Fin 4 → Nat) a + S2x1x64x256.size a ≤ S2x128x64x256.size a
  slices_S2x64x383_o0_0_112_S2x64x256 : S2x64x383.Slices ![0, 0, 112] S2x64x256
  inb_S2x128x64x256_S2x1x64x256_0_112_0_0 : ∀ a, (![0, 112, 0, 0] : Fin 4 → Nat) a + S2x1x64x256.size a ≤ S2x128x64x256.size a
  slices_S2x64x383_o0_0_113_S2x64x256 : S2x64x383.Slices ![0, 0, 113] S2x64x256
  inb_S2x128x64x256_S2x1x64x256_0_113_0_0 : ∀ a, (![0, 113, 0, 0] : Fin 4 → Nat) a + S2x1x64x256.size a ≤ S2x128x64x256.size a
  slices_S2x64x383_o0_0_114_S2x64x256 : S2x64x383.Slices ![0, 0, 114] S2x64x256
  inb_S2x128x64x256_S2x1x64x256_0_114_0_0 : ∀ a, (![0, 114, 0, 0] : Fin 4 → Nat) a + S2x1x64x256.size a ≤ S2x128x64x256.size a
  slices_S2x64x383_o0_0_115_S2x64x256 : S2x64x383.Slices ![0, 0, 115] S2x64x256
  inb_S2x128x64x256_S2x1x64x256_0_115_0_0 : ∀ a, (![0, 115, 0, 0] : Fin 4 → Nat) a + S2x1x64x256.size a ≤ S2x128x64x256.size a
  slices_S2x64x383_o0_0_116_S2x64x256 : S2x64x383.Slices ![0, 0, 116] S2x64x256
  inb_S2x128x64x256_S2x1x64x256_0_116_0_0 : ∀ a, (![0, 116, 0, 0] : Fin 4 → Nat) a + S2x1x64x256.size a ≤ S2x128x64x256.size a
  slices_S2x64x383_o0_0_117_S2x64x256 : S2x64x383.Slices ![0, 0, 117] S2x64x256
  inb_S2x128x64x256_S2x1x64x256_0_117_0_0 : ∀ a, (![0, 117, 0, 0] : Fin 4 → Nat) a + S2x1x64x256.size a ≤ S2x128x64x256.size a
  slices_S2x64x383_o0_0_118_S2x64x256 : S2x64x383.Slices ![0, 0, 118] S2x64x256
  inb_S2x128x64x256_S2x1x64x256_0_118_0_0 : ∀ a, (![0, 118, 0, 0] : Fin 4 → Nat) a + S2x1x64x256.size a ≤ S2x128x64x256.size a
  slices_S2x64x383_o0_0_119_S2x64x256 : S2x64x383.Slices ![0, 0, 119] S2x64x256
  inb_S2x128x64x256_S2x1x64x256_0_119_0_0 : ∀ a, (![0, 119, 0, 0] : Fin 4 → Nat) a + S2x1x64x256.size a ≤ S2x128x64x256.size a
  slices_S2x64x383_o0_0_120_S2x64x256 : S2x64x383.Slices ![0, 0, 120] S2x64x256
  inb_S2x128x64x256_S2x1x64x256_0_120_0_0 : ∀ a, (![0, 120, 0, 0] : Fin 4 → Nat) a + S2x1x64x256.size a ≤ S2x128x64x256.size a
  slices_S2x64x383_o0_0_121_S2x64x256 : S2x64x383.Slices ![0, 0, 121] S2x64x256
  inb_S2x128x64x256_S2x1x64x256_0_121_0_0 : ∀ a, (![0, 121, 0, 0] : Fin 4 → Nat) a + S2x1x64x256.size a ≤ S2x128x64x256.size a
  slices_S2x64x383_o0_0_122_S2x64x256 : S2x64x383.Slices ![0, 0, 122] S2x64x256
  inb_S2x128x64x256_S2x1x64x256_0_122_0_0 : ∀ a, (![0, 122, 0, 0] : Fin 4 → Nat) a + S2x1x64x256.size a ≤ S2x128x64x256.size a
  slices_S2x64x383_o0_0_123_S2x64x256 : S2x64x383.Slices ![0, 0, 123] S2x64x256
  inb_S2x128x64x256_S2x1x64x256_0_123_0_0 : ∀ a, (![0, 123, 0, 0] : Fin 4 → Nat) a + S2x1x64x256.size a ≤ S2x128x64x256.size a
  slices_S2x64x383_o0_0_124_S2x64x256 : S2x64x383.Slices ![0, 0, 124] S2x64x256
  inb_S2x128x64x256_S2x1x64x256_0_124_0_0 : ∀ a, (![0, 124, 0, 0] : Fin 4 → Nat) a + S2x1x64x256.size a ≤ S2x128x64x256.size a
  slices_S2x64x383_o0_0_125_S2x64x256 : S2x64x383.Slices ![0, 0, 125] S2x64x256
  inb_S2x128x64x256_S2x1x64x256_0_125_0_0 : ∀ a, (![0, 125, 0, 0] : Fin 4 → Nat) a + S2x1x64x256.size a ≤ S2x128x64x256.size a
  slices_S2x64x383_o0_0_126_S2x64x256 : S2x64x383.Slices ![0, 0, 126] S2x64x256
  inb_S2x128x64x256_S2x1x64x256_0_126_0_0 : ∀ a, (![0, 126, 0, 0] : Fin 4 → Nat) a + S2x1x64x256.size a ≤ S2x128x64x256.size a
  slices_S2x64x383_o0_0_127_S2x64x256 : S2x64x383.Slices ![0, 0, 127] S2x64x256
  inb_S2x128x64x256_S2x1x64x256_0_127_0_0 : ∀ a, (![0, 127, 0, 0] : Fin 4 → Nat) a + S2x1x64x256.size a ≤ S2x128x64x256.size a
  pads_S2x64x512_S2x64x1535_000_000_5125110 : S2x64x512.Pads (![0, 0, 512] : Fin 3 → Nat) ![0, 0, 511] ![0, 0, 0] S2x64x1535
  pads_S2x64x512_S2x64x1023_000_000_2562550 : S2x64x512.Pads (![0, 0, 256] : Fin 3 → Nat) ![0, 0, 255] ![0, 0, 0] S2x64x1023
  hrank0 : 0 < grid0.rank
  k0_mult1_dvd : ∀ i : grid0.Coords, 128 ∣ (k0_mult1 i).toNat
  k0_off1_inb : ∀ i : grid0.Coords, ∀ a, (k0_off1 i) a + S2x64x383.size a ≤ S2x64x767.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x64x767.size a ≤ S2x64x767.size a
  hwx0_0 : ∀ i : grid0.Coords, EltTy.bits .f32 = 32 ∨ (Rect.block (s := S2x64x767) S2x64x767.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x64x256.size a ≤ S2x512x64x256.size a
  hwx0_1 : ∀ i : grid0.Coords, EltTy.bits .f32 = 32 ∨ (Rect.block (s := S2x512x64x256) S2x128x64x256.size (cc0_transform_1 i) (hinb0_1 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S2x64x383.size a ≤ S2x64x1535.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x64x1535.size a ≤ S2x64x1535.size a
  hwx1_0 : ∀ i : grid1.Coords, EltTy.bits .f32 = 32 ∨ (Rect.block (s := S2x64x1535) S2x64x1535.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x128x64x256.size a ≤ S2x512x64x1024.size a
  hwx1_1 : ∀ i : grid1.Coords, EltTy.bits .f32 = 32 ∨ (Rect.block (s := S2x512x64x1024) S2x128x64x256.size (cc1_transform_1 i) (hinb1_1 i)).WholeWords (EltTy.packing .f32)
  hrank2 : 0 < grid2.rank
  k2_mult1_dvd : ∀ i : grid2.Coords, 128 ∣ (k2_mult1 i).toNat
  k2_off1_inb : ∀ i : grid2.Coords, ∀ a, (k2_off1 i) a + S2x64x383.size a ≤ S2x64x1023.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2x64x1023.size a ≤ S2x64x1023.size a
  hwx2_0 : ∀ i : grid2.Coords, EltTy.bits .f32 = 32 ∨ (Rect.block (s := S2x64x1023) S2x64x1023.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2x128x64x256.size a ≤ S2x512x64x512.size a
  hwx2_1 : ∀ i : grid2.Coords, EltTy.bits .f32 = 32 ∨ (Rect.block (s := S2x512x64x512) S2x128x64x256.size (cc2_transform_1 i) (hinb2_1 i)).WholeWords (EltTy.packing .f32)

variable [Facts₀]

abbrev win0_0 : Pipeline.Window sig grid0 :=
  Pipeline.Window.ofSpec (Memref.whole main_v0) S2x64x767.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x128x64x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S2x64x1535.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2x128x64x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S2x64x1023.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v5) S2x128x64x256.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S2x64x512 : Shape := ⟨3, ![2, 64, 512]⟩
abbrev S512 : Shape := ⟨1, ![512]⟩
abbrev S512x1 : Shape := ⟨2, ![512, 1]⟩
abbrev S_ : Shape := ⟨0, ![]⟩
abbrev S256 : Shape := ⟨1, ![256]⟩
abbrev S1x256 : Shape := ⟨2, ![1, 256]⟩
abbrev S512x256 : Shape := ⟨2, ![512, 256]⟩
abbrev S512x256x1 : Shape := ⟨3, ![512, 256, 1]⟩
abbrev S2x64x512x256 : Shape := ⟨4, ![2, 64, 512, 256]⟩
abbrev S1x1x512x256 : Shape := ⟨4, ![1, 1, 512, 256]⟩
abbrev S2x512x64x256 : Shape := ⟨4, ![2, 512, 64, 256]⟩
abbrev S1024 : Shape := ⟨1, ![1024]⟩
abbrev S1x1024 : Shape := ⟨2, ![1, 1024]⟩
abbrev S512x1024 : Shape := ⟨2, ![512, 1024]⟩
abbrev S512x1024x1 : Shape := ⟨3, ![512, 1024, 1]⟩
abbrev S2x64x512x1024 : Shape := ⟨4, ![2, 64, 512, 1024]⟩
abbrev S1x1x512x1024 : Shape := ⟨4, ![1, 1, 512, 1024]⟩
abbrev S2x512x64x1024 : Shape := ⟨4, ![2, 512, 64, 1024]⟩
abbrev S1x512 : Shape := ⟨2, ![1, 512]⟩
abbrev S512x512 : Shape := ⟨2, ![512, 512]⟩
abbrev S512x512x1 : Shape := ⟨3, ![512, 512, 1]⟩
abbrev S2x64x512x512 : Shape := ⟨4, ![2, 64, 512, 512]⟩
abbrev S1x1x512x512 : Shape := ⟨4, ![1, 1, 512, 512]⟩
abbrev S2x512x64x512 : Shape := ⟨4, ![2, 512, 64, 512]⟩

abbrev nBuf : Space → Nat
  | .hbm => 161
  | .vmem => 0
  | .smem => 0
  | _ => 0

abbrev hbmTy0_0 (i : Nat) : BufTy := match i % 128 with
  | 0 => ⟨S2x64x512, .f32⟩
  | 1 => ⟨S512, .i32⟩
  | 2 => ⟨S512x1, .i32⟩
  | 3 => ⟨S_, .i32⟩
  | 4 => ⟨S512x1, .i32⟩
  | 5 => ⟨S512x1, .i32⟩
  | 6 => ⟨S256, .i32⟩
  | 7 => ⟨S1x256, .i32⟩
  | 8 => ⟨S512x256, .i32⟩
  | 9 => ⟨S512x256, .i32⟩
  | 10 => ⟨S512x256, .i32⟩
  | 11 => ⟨S_, .i32⟩
  | 12 => ⟨S512x256, .i32⟩
  | 13 => ⟨S512x256, .i1⟩
  | 14 => ⟨S_, .i32⟩
  | 15 => ⟨S512x256, .i32⟩
  | 16 => ⟨S512x256, .i1⟩
  | 17 => ⟨S512x256, .i1⟩
  | 18 => ⟨S_, .i32⟩
  | 19 => ⟨S_, .i32⟩
  | 20 => ⟨S_, .i32⟩
  | 21 => ⟨S512x256, .i32⟩
  | 22 => ⟨S512x256, .i32⟩
  | 23 => ⟨S_, .i32⟩
  | 24 => ⟨S512x256, .i32⟩
  | 25 => ⟨S512x256, .i32⟩
  | 26 => ⟨S_, .i32⟩
  | 27 => ⟨S512x256, .i32⟩
  | 28 => ⟨S512x256, .i1⟩
  | 29 => ⟨S_, .i32⟩
  | 30 => ⟨S512x256, .i32⟩
  | 31 => ⟨S512x256, .i32⟩
  | 32 => ⟨S512x256, .i32⟩
  | 33 => ⟨S512x256x1, .i32⟩
  | 34 => ⟨S2x64x512x256, .f32⟩
  | 35 => ⟨S1x1x512x256, .i1⟩
  | 36 => ⟨S_, .f32⟩
  | 37 => ⟨S2x64x512x256, .i1⟩
  | 38 => ⟨S2x64x512x256, .f32⟩
  | 39 => ⟨S2x64x512x256, .f32⟩
  | 40 => ⟨S2x512x64x256, .f32⟩
  | 41 => ⟨S512, .i32⟩
  | 42 => ⟨S512x1, .i32⟩
  | 43 => ⟨S_, .i32⟩
  | 44 => ⟨S512x1, .i32⟩
  | 45 => ⟨S512x1, .i32⟩
  | 46 => ⟨S1024, .i32⟩
  | 47 => ⟨S1x1024, .i32⟩
  | 48 => ⟨S512x1024, .i32⟩
  | 49 => ⟨S512x1024, .i32⟩
  | 50 => ⟨S512x1024, .i32⟩
  | 51 => ⟨S_, .i32⟩
  | 52 => ⟨S512x1024, .i32⟩
  | 53 => ⟨S512x1024, .i1⟩
  | 54 => ⟨S_, .i32⟩
  | 55 => ⟨S512x1024, .i32⟩
  | 56 => ⟨S512x1024, .i1⟩
  | 57 => ⟨S512x1024, .i1⟩
  | 58 => ⟨S_, .i32⟩
  | 59 => ⟨S_, .i32⟩
  | 60 => ⟨S_, .i32⟩
  | 61 => ⟨S512x1024, .i32⟩
  | 62 => ⟨S512x1024, .i32⟩
  | 63 => ⟨S_, .i32⟩
  | 64 => ⟨S512x1024, .i32⟩
  | 65 => ⟨S512x1024, .i32⟩
  | 66 => ⟨S_, .i32⟩
  | 67 => ⟨S512x1024, .i32⟩
  | 68 => ⟨S512x1024, .i1⟩
  | 69 => ⟨S_, .i32⟩
  | 70 => ⟨S512x1024, .i32⟩
  | 71 => ⟨S512x1024, .i32⟩
  | 72 => ⟨S512x1024, .i32⟩
  | 73 => ⟨S512x1024x1, .i32⟩
  | 74 => ⟨S2x64x512x1024, .f32⟩
  | 75 => ⟨S1x1x512x1024, .i1⟩
  | 76 => ⟨S_, .f32⟩
  | 77 => ⟨S2x64x512x1024, .i1⟩
  | 78 => ⟨S2x64x512x1024, .f32⟩
  | 79 => ⟨S2x64x512x1024, .f32⟩
  | 80 => ⟨S2x512x64x1024, .f32⟩
  | 81 => ⟨S512, .i32⟩
  | 82 => ⟨S512x1, .i32⟩
  | 83 => ⟨S_, .i32⟩
  | 84 => ⟨S512x1, .i32⟩
  | 85 => ⟨S512x1, .i32⟩
  | 86 => ⟨S512, .i32⟩
  | 87 => ⟨S1x512, .i32⟩
  | 88 => ⟨S512x512, .i32⟩
  | 89 => ⟨S512x512, .i32⟩
  | 90 => ⟨S512x512, .i32⟩
  | 91 => ⟨S_, .i32⟩
  | 92 => ⟨S512x512, .i32⟩
  | 93 => ⟨S512x512, .i1⟩
  | 94 => ⟨S_, .i32⟩
  | 95 => ⟨S512x512, .i32⟩
  | 96 => ⟨S512x512, .i1⟩
  | 97 => ⟨S512x512, .i1⟩
  | 98 => ⟨S_, .i32⟩
  | 99 => ⟨S_, .i32⟩
  | 100 => ⟨S_, .i32⟩
  | 101 => ⟨S512x512, .i32⟩
  | 102 => ⟨S512x512, .i32⟩
  | 103 => ⟨S_, .i32⟩
  | 104 => ⟨S512x512, .i32⟩
  | 105 => ⟨S512x512, .i32⟩
  | 106 => ⟨S_, .i32⟩
  | 107 => ⟨S512x512, .i32⟩
  | 108 => ⟨S512x512, .i1⟩
  | 109 => ⟨S_, .i32⟩
  | 110 => ⟨S512x512, .i32⟩
  | 111 => ⟨S512x512, .i32⟩
  | 112 => ⟨S512x512, .i32⟩
  | 113 => ⟨S512x512x1, .i32⟩
  | 114 => ⟨S2x64x512x512, .f32⟩
  | 115 => ⟨S1x1x512x512, .i1⟩
  | 116 => ⟨S_, .f32⟩
  | 117 => ⟨S2x64x512x512, .i1⟩
  | 118 => ⟨S2x64x512x512, .f32⟩
  | 119 => ⟨S2x64x512x512, .f32⟩
  | 120 => ⟨S2x512x64x512, .f32⟩
  | 121 => ⟨S512, .i32⟩
  | 122 => ⟨S512x1, .i32⟩
  | 123 => ⟨S_, .i32⟩
  | 124 => ⟨S512x1, .i32⟩
  | 125 => ⟨S512x1, .i32⟩
  | 126 => ⟨S512, .i32⟩
  | 127 => ⟨S1x512, .i32⟩
  | _ => ⟨S2x64x512, .f32⟩

abbrev hbmTy0_1 (i : Nat) : BufTy := match i % 128 with
  | 0 => ⟨S512x512, .i32⟩
  | 1 => ⟨S512x512, .i32⟩
  | 2 => ⟨S512x512, .i32⟩
  | 3 => ⟨S_, .i32⟩
  | 4 => ⟨S512x512, .i32⟩
  | 5 => ⟨S512x512, .i1⟩
  | 6 => ⟨S_, .i32⟩
  | 7 => ⟨S512x512, .i32⟩
  | 8 => ⟨S512x512, .i1⟩
  | 9 => ⟨S512x512, .i1⟩
  | 10 => ⟨S_, .i32⟩
  | 11 => ⟨S_, .i32⟩
  | 12 => ⟨S_, .i32⟩
  | 13 => ⟨S512x512, .i32⟩
  | 14 => ⟨S512x512, .i32⟩
  | 15 => ⟨S_, .i32⟩
  | 16 => ⟨S512x512, .i32⟩
  | 17 => ⟨S512x512, .i32⟩
  | 18 => ⟨S_, .i32⟩
  | 19 => ⟨S512x512, .i32⟩
  | 20 => ⟨S512x512, .i1⟩
  | 21 => ⟨S_, .i32⟩
  | 22 => ⟨S512x512, .i32⟩
  | 23 => ⟨S512x512, .i32⟩
  | 24 => ⟨S512x512, .i32⟩
  | 25 => ⟨S512x512x1, .i32⟩
  | 26 => ⟨S2x64x512x512, .f32⟩
  | 27 => ⟨S1x1x512x512, .i1⟩
  | 28 => ⟨S_, .f32⟩
  | 29 => ⟨S2x64x512x512, .i1⟩
  | 30 => ⟨S2x64x512x512, .f32⟩
  | 31 => ⟨S2x64x512x512, .f32⟩
  | 32 => ⟨S2x512x64x512, .f32⟩
  | _ => ⟨S2x64x512, .f32⟩

abbrev hbmTy (i : Nat) : BufTy := match i / 128 with
  | 0 => hbmTy0_0 i
  | 1 => hbmTy0_1 i
  | _ => ⟨S2x64x512, .f32⟩

abbrev bufTy : (tb : Table) → Fin (tcTables nBuf tb) → BufTy
  | .hbm, ⟨i, _⟩ => hbmTy i
  | _, _ => ⟨S2x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_c_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_2 : Ref sig .tc := ⟨.hbm, 18, rfl⟩
abbrev main_c_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_9 : Ref sig .tc := ⟨.hbm, 58, rfl⟩
abbrev main_c_10 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_13 : Ref sig .tc := ⟨.hbm, 76, rfl⟩
abbrev main_call3_v0 : Ref sig .tc := ⟨.hbm, 77, rfl⟩
abbrev main_call3_v1 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_14 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_15 : Ref sig .tc := ⟨.hbm, 91, rfl⟩
abbrev main_v59 : Ref sig .tc := ⟨.hbm, 92, rfl⟩
abbrev main_v60 : Ref sig .tc := ⟨.hbm, 93, rfl⟩
abbrev main_c_16 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_17 : Ref sig .tc := ⟨.hbm, 98, rfl⟩
abbrev main_c_18 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v64 : Ref sig .tc := ⟨.hbm, 105, rfl⟩
abbrev main_c_19 : Ref sig .tc := ⟨.hbm, 106, rfl⟩
abbrev main_v65 : Ref sig .tc := ⟨.hbm, 107, rfl⟩
abbrev main_v66 : Ref sig .tc := ⟨.hbm, 108, rfl⟩
abbrev main_c_20 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_21 : Ref sig .tc := ⟨.hbm, 116, rfl⟩
abbrev main_call5_v0 : Ref sig .tc := ⟨.hbm, 117, rfl⟩
abbrev main_call5_v1 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_c_22 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_23 : Ref sig .tc := ⟨.hbm, 131, rfl⟩
abbrev main_v84 : Ref sig .tc := ⟨.hbm, 132, rfl⟩
abbrev main_v85 : Ref sig .tc := ⟨.hbm, 133, rfl⟩
abbrev main_c_24 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_c_25 : Ref sig .tc := ⟨.hbm, 138, rfl⟩
abbrev main_c_26 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_call6_v3 : Ref sig .tc := ⟨.hbm, 143, rfl⟩
abbrev main_call6_v4 : Ref sig .tc := ⟨.hbm, 144, rfl⟩
abbrev main_v89 : Ref sig .tc := ⟨.hbm, 145, rfl⟩
abbrev main_c_27 : Ref sig .tc := ⟨.hbm, 146, rfl⟩
abbrev main_v90 : Ref sig .tc := ⟨.hbm, 147, rfl⟩
abbrev main_v91 : Ref sig .tc := ⟨.hbm, 148, rfl⟩
abbrev main_c_28 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_29 : Ref sig .tc := ⟨.hbm, 156, rfl⟩
abbrev main_call7_v0 : Ref sig .tc := ⟨.hbm, 157, rfl⟩
abbrev main_call7_v1 : Ref sig .tc := ⟨.hbm, 158, rfl⟩
abbrev main_v98 : Ref sig .tc := ⟨.hbm, 159, rfl⟩
abbrev main_v99 : Ref sig .tc := ⟨.hbm, 160, rfl⟩

abbrev nD : Nat := 1
abbrev τ : Topo := Topo.v7x

variable {F : FTy → Type} [FloatOps F]

class Facts₀ : Prop where
  bcast_S512_S512x1_0 : S512.BroadcastsInDim S512x1 (![0] : Fin 1 → Fin S512x1.rank)
  bcast_S_S512x1 : S_.BroadcastsInDim S512x1 (![] : Fin 0 → Fin S512x1.rank)
  bcast_S256_S1x256_1 : S256.BroadcastsInDim S1x256 (![1] : Fin 1 → Fin S1x256.rank)
  bcast_S512x1_S512x256_0_1 : S512x1.BroadcastsInDim S512x256 (![0, 1] : Fin 2 → Fin S512x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S512x256_S1x1x512x256_2_3 : S512x256.BroadcastsInDim S1x1x512x256 (![2, 3] : Fin 2 → Fin S1x1x512x256.rank)
  bcast_S1x1x512x256_S2x64x512x256_0_1_2_3 : S1x1x512x256.BroadcastsInDim S2x64x512x256 (![0, 1, 2, 3] : Fin 4 → Fin S2x64x512x256.rank)
  bcast_S_S2x64x512x256 : S_.BroadcastsInDim S2x64x512x256 (![] : Fin 0 → Fin S2x64x512x256.rank)
  transposes_S2x64x512x256_S2x512x64x256_0_2_1_3 : S2x64x512x256.Transposes [0, 2, 1, 3] S2x512x64x256
  bcast_S1024_S1x1024_1 : S1024.BroadcastsInDim S1x1024 (![1] : Fin 1 → Fin S1x1024.rank)
  bcast_S512x1_S512x1024_0_1 : S512x1.BroadcastsInDim S512x1024 (![0, 1] : Fin 2 → Fin S512x1024.rank)
  bcast_S1x1024_S512x1024_0_1 : S1x1024.BroadcastsInDim S512x1024 (![0, 1] : Fin 2 → Fin S512x1024.rank)
  bcast_S_S512x1024 : S_.BroadcastsInDim S512x1024 (![] : Fin 0 → Fin S512x1024.rank)
  bcast_S512x1024_S512x1024x1_0_1 : S512x1024.BroadcastsInDim S512x1024x1 (![0, 1] : Fin 2 → Fin S512x1024x1.rank)
  bcast_S512x1024_S1x1x512x1024_2_3 : S512x1024.BroadcastsInDim S1x1x512x1024 (![2, 3] : Fin 2 → Fin S1x1x512x1024.rank)
  bcast_S1x1x512x1024_S2x64x512x1024_0_1_2_3 : S1x1x512x1024.BroadcastsInDim S2x64x512x1024 (![0, 1, 2, 3] : Fin 4 → Fin S2x64x512x1024.rank)
  bcast_S_S2x64x512x1024 : S_.BroadcastsInDim S2x64x512x1024 (![] : Fin 0 → Fin S2x64x512x1024.rank)
  transposes_S2x64x512x1024_S2x512x64x1024_0_2_1_3 : S2x64x512x1024.Transposes [0, 2, 1, 3] S2x512x64x1024
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S1x1x512x512_2_3 : S512x512.BroadcastsInDim S1x1x512x512 (![2, 3] : Fin 2 → Fin S1x1x512x512.rank)
  bcast_S1x1x512x512_S2x64x512x512_0_1_2_3 : S1x1x512x512.BroadcastsInDim S2x64x512x512 (![0, 1, 2, 3] : Fin 4 → Fin S2x64x512x512.rank)
  bcast_S_S2x64x512x512 : S_.BroadcastsInDim S2x64x512x512 (![] : Fin 0 → Fin S2x64x512x512.rank)
  transposes_S2x64x512x512_S2x512x64x512_0_2_1_3 : S2x64x512x512.Transposes [0, 2, 1, 3] S2x512x64x512
  gather_S2x64x512_S512x256x1_S2x64x512x256_01_2_n_n_2_2_2641_wf : GatherDims.WF S2x64x512 S512x256x1 S2x64x512x256 [0, 1] [2] [] [2] [] 2 ![2, 64, 1]
  gather_S2x64x512_S512x1024x1_S2x64x512x1024_01_2_n_n_2_2_2641_wf : GatherDims.WF S2x64x512 S512x1024x1 S2x64x512x1024 [0, 1] [2] [] [2] [] 2 ![2, 64, 1]
  gather_S2x64x512_S512x512x1_S2x64x512x512_01_2_n_n_2_2_2641_wf : GatherDims.WF S2x64x512 S512x512x1 S2x64x512x512 [0, 1] [2] [] [2] [] 2 ![2, 64, 1]

variable [Facts₀]

def gather_S2x64x512_S512x256x1_S2x64x512x256_01_2_n_n_2_2_2641 : GatherDims S2x64x512 S512x256x1 S2x64x512x256 where
  offsetDims := [0, 1]
  collapsedSliceDims := [2]
  operandBatchingDims := []
  startIndicesBatchingDims := []
  startIndexMap := [2]
  indexVectorDim := 2
  sliceSizes := ![2, 64, 1]
  wf := gather_S2x64x512_S512x256x1_S2x64x512x256_01_2_n_n_2_2_2641_wf
def gather_S2x64x512_S512x1024x1_S2x64x512x1024_01_2_n_n_2_2_2641 : GatherDims S2x64x512 S512x1024x1 S2x64x512x1024 where
  offsetDims := [0, 1]
  collapsedSliceDims := [2]
  operandBatchingDims := []
  startIndicesBatchingDims := []
  startIndexMap := [2]
  indexVectorDim := 2
  sliceSizes := ![2, 64, 1]
  wf := gather_S2x64x512_S512x1024x1_S2x64x512x1024_01_2_n_n_2_2_2641_wf
def gather_S2x64x512_S512x512x1_S2x64x512x512_01_2_n_n_2_2_2641 : GatherDims S2x64x512 S512x512x1 S2x64x512x512 where
  offsetDims := [0, 1]
  collapsedSliceDims := [2]
  operandBatchingDims := []
  startIndicesBatchingDims := []
  startIndexMap := [2]
  indexVectorDim := 2
  sliceSizes := ![2, 64, 1]
  wf := gather_S2x64x512_S512x512x1_S2x64x512x512_01_2_n_n_2_2_2641_wf

class Facts : Prop extends Facts₀ where

variable [Facts]
-- ==== Proof.Spec.lean ====
/-
  The function both programs compute, stated once and away from either program.

  From a sequence `x` of shape [2, 64, 512] (batch, channel, position) and a window length `L` with
  `half = L / 2`, the result has shape [2, 512, 64, L]: entry `(b, n, c, l)` is entry `l` of the
  window of length `L` centred at position `n`, that is `x (b, c, n + l - half)` when that
  position exists (`half ≤ n + l < half + 512`) and zero otherwise. Equivalently it is entry
  `n + l` of the sequence padded with `half` zeros in front (and zeros behind): the window slides
  one position per step of `n`.
-/
import Idealize.ShloMosaic.PureOps.Ideal
import Idealize.ShloMosaic.Lib.ValueIdx

noncomputable section

namespace Cert.Windows

open Idealize.ShloMosaic Idealize.ShloMosaic.ValueIdx

/-- Entry `k` of the sequence padded with `half` zeros in front: `x (b, c, k - half)` where that position exists,
    zero elsewhere. -/
def paddedAt (half : ℕ) (x : (⟨3, ![2, 64, 512]⟩ : Shape).Idx → EReal) (b : Fin 2) (c : Fin 64) (k : ℕ) : EReal :=
  if h : half ≤ k ∧ k < half + 512 then x (ix3 b c ⟨k - half, by omega⟩) else 0

/-- Entry `l` of the window centred at position `n`: entry `n + l` of the padded sequence. -/
def windowsAt (half : ℕ) (x : (⟨3, ![2, 64, 512]⟩ : Shape).Idx → EReal) (b : Fin 2) (n : Fin 512) (c : Fin 64) (l : ℕ) : EReal :=
  paddedAt half x b c (n.val + l)

/-- Inside the sequence the padded sequence is the sequence, shifted by the front padding. -/
theorem paddedAt_inside (half : ℕ) (x : (⟨3, ![2, 64, 512]⟩ : Shape).Idx → EReal) (b : Fin 2) (c : Fin 64) (k : ℕ)
    (p : Fin 512) (hk : k = half + p.val) : paddedAt half x b c k = x (ix3 b c p) := by
  unfold paddedAt
  rw [dif_pos ⟨by omega, by have := p.isLt; omega⟩]
  exact congrArg (fun q => x (ix3 b c q)) (Fin.ext (by show k - half = p.val; omega))

/-- Outside the sequence the padded sequence is zero. -/
theorem paddedAt_outside (half : ℕ) (x : (⟨3, ![2, 64, 512]⟩ : Shape).Idx → EReal) (b : Fin 2) (c : Fin 64) (k : ℕ)
    (hk : ¬ (half ≤ k ∧ k < half + 512)) : paddedAt half x b c k = 0 := by
  unfold paddedAt
  rw [dif_neg hk]

/-- A window entry whose position exists is the sequence there. -/
theorem windowsAt_inside (half : ℕ) (x : (⟨3, ![2, 64, 512]⟩ : Shape).Idx → EReal) (b : Fin 2) (n : Fin 512) (c : Fin 64) (l : ℕ)
    (p : Fin 512) (hp : n.val + l = half + p.val) : windowsAt half x b n c l = x (ix3 b c p) :=
  paddedAt_inside half x b c _ p hp

/-- A window entry whose position does not exist is zero. -/
theorem windowsAt_outside (half : ℕ) (x : (⟨3, ![2, 64, 512]⟩ : Shape).Idx → EReal) (b : Fin 2) (n : Fin 512) (c : Fin 64) (l : ℕ)
    (h : ¬ (half ≤ n.val + l ∧ n.val + l < half + 512)) : windowsAt half x b n c l = 0 :=
  paddedAt_outside half x b c _ h

/-- The whole result for window length `L`, as one function of the sequence. -/
def windows (half L : ℕ) (x : (⟨3, ![2, 64, 512]⟩ : Shape).Idx → EReal) : (⟨4, ![2, 512, 64, L]⟩ : Shape).Idx → EReal :=
  fun j => windowsAt half x (j 0) (j 1) (j 2) (j 3).val

/-- The result at an index given by its coordinates. -/
theorem windows_apply (half L : ℕ) (x : (⟨3, ![2, 64, 512]⟩ : Shape).Idx → EReal) (b : Fin 2) (n : Fin 512) (c : Fin 64) (l : Fin L) :
    windows half L x (ix4 b n c l) = windowsAt half x b n c l.val := rfl

end Cert.Windows

end
-- ==== Proof.KernelStrip.lean ====
/-
  One row of a sliding window, read at an index.

  A strip `v` of shape [2, 64, 383] (batch, channel, lane) holds 383 consecutive entries of the padded
  sequence. Row `r` of an output block is lanes `r … r + 255` of the strip, given a unit axis in second
  place: at `(b, ·, c, l)` it is `v (b, c, r + l)`. The offset `r` is a variable here, so the one
  statement serves every row.
-/
import Idealize.ShloMosaic.Lib.Pipeline.Value
import Idealize.ShloMosaic.Lib.ValueIdx

noncomputable section

namespace Cert.Windows

open Idealize.ShloMosaic Idealize.ShloMosaic.ValueIdx

/-- Lanes `r … r + 255` of a strip, recast with a unit second axis, read at `(b, u, c, l)`: the strip at lane `r + l`. -/
theorem slide_row {α : Type} (r : ℕ) (v : (⟨3, ![2, 64, 383]⟩ : Shape).Idx → α)
    (hs : (⟨3, ![2, 64, 383]⟩ : Shape).Slices ![0, 0, r] ⟨3, ![2, 64, 256]⟩)
    (hc : (⟨3, ![2, 64, 256]⟩ : Shape).ShapeCasts ⟨4, ![2, 1, 64, 256]⟩)
    (b : Fin 2) (u : Fin 1) (c : Fin 64) (l : Fin 256) (hr : r + l.val < 383) :
    shapeCast ⟨4, ![2, 1, 64, 256]⟩ (extractStridedSlice ⟨3, ![2, 64, 256]⟩ ![0, 0, r] v hs) hc (ix4 b u c l)
      = v (ix3 b c ⟨r + l.val, hr⟩) := by
  refine (shapeCast_apply _ hc (ix4 b u c l) (ix3 b c l) ?_).trans ?_
  · rw [Shape.rowMajor_val_three, Shape.rowMajor_val_four]
    show (b.val * 64 + c.val) * 256 + l.val = ((b.val * 1 + u.val) * 64 + c.val) * 256 + l.val
    have := u.isLt
    omega
  · refine extractStridedSlice_apply _ v hs (ix3 b c l) (ix3 b c ⟨r + l.val, hr⟩) fun a => ?_
    match a with
    | ⟨0, _⟩ => show b.val = 0 + b.val; omega
    | ⟨1, _⟩ => show c.val = 0 + c.val; omega
    | ⟨2, _⟩ => rfl

/-- The block of 128 rows sliding over a strip: row `r`, lane `l` is the strip at lane `r + l`. (Since `r ≤ 127` and
    `l ≤ 255` the lane is at most 382; the `min` only spares the term a proof of that.) -/
def slideBlock {α : Type} (v : (⟨3, ![2, 64, 383]⟩ : Shape).Idx → α) : (⟨4, ![2, 128, 64, 256]⟩ : Shape).Idx → α :=
  fun y => v (ix3 (y 0) (y 2) ⟨min ((y 1).val + (y 3).val) 382, by omega⟩)

/-- The sliding block at an index given by its coordinates. -/
theorem slideBlock_apply {α : Type} (v : (⟨3, ![2, 64, 383]⟩ : Shape).Idx → α) (b : Fin 2) (r : Fin 128) (c : Fin 64) (l : Fin 256) :
    slideBlock v (ix4 b r c l) = v (ix3 b c ⟨r.val + l.val, by omega⟩) := by
  unfold slideBlock
  exact congrArg (fun q => v (ix3 b c q)) (Fin.ext (by show min (r.val + l.val) 382 = r.val + l.val; omega))

/-- Row `r` of the sliding block, stored through the rectangle of that row, IS the strip's lanes `r … r + 255`: what a
    store of those lanes at row `r` must satisfy for the stores together to leave the sliding block. -/
theorem row_piece {α : Type} (r : ℕ) (v : (⟨3, ![2, 64, 383]⟩ : Shape).Idx → α)
    (hs : (⟨3, ![2, 64, 383]⟩ : Shape).Slices ![0, 0, r] ⟨3, ![2, 64, 256]⟩)
    (hc : (⟨3, ![2, 64, 256]⟩ : Shape).ShapeCasts ⟨4, ![2, 1, 64, 256]⟩)
    (inb : ∀ a, (![0, r, 0, 0] : Fin 4 → ℕ) a + (![2, 1, 64, 256] : Fin 4 → ℕ) a ≤ (⟨4, ![2, 128, 64, 256]⟩ : Shape).size a)
    (x : (Rect.unit (s := ⟨4, ![2, 128, 64, 256]⟩) ![0, r, 0, 0] ![2, 1, 64, 256] inb).shape.Idx) :
    shapeCast ⟨4, ![2, 1, 64, 256]⟩ (extractStridedSlice ⟨3, ![2, 64, 256]⟩ ![0, 0, r] v hs) hc x
      = slideBlock v ((Rect.unit (s := ⟨4, ![2, 128, 64, 256]⟩) ![0, r, 0, 0] ![2, 1, 64, 256] inb).emb x) := by
  have h2 : r + 256 ≤ 383 := hs.2 2
  obtain ⟨b, u, c, l, rfl⟩ : ∃ (b : Fin 2) (u : Fin 1) (c : Fin 64) (l : Fin 256), x = ix4 b u c l :=
    ⟨x 0, x 1, x 2, x 3, eq_ix4 (n0 := 2) (n1 := 1) (n2 := 64) (n3 := 256) x⟩
  have hu := u.isLt
  have hl := l.isLt
  refine (slide_row r v hs hc b u c l (by omega)).trans ?_
  unfold slideBlock
  refine congrArg v (funext fun a => Fin.ext ?_)
  match a with
  | ⟨0, _⟩ => show b.val = 0 + 1 * b.val; omega
  | ⟨1, _⟩ => show c.val = 0 + 1 * c.val; omega
  | ⟨2, _⟩ => show r + l.val = min ((r + 1 * u.val) + (0 + 1 * l.val)) 382; omega

/-- The whole result of sliding over a padded sequence `p` of `P` lanes: entry `(b, n, c, l)` is `p (b, c, n + l)`.
    (For `P = 512 + L - 1` the lane `n + l` is at most `P - 1`; the `min` only spares the term a proof of that.) -/
def slideAll {α : Type} (P L : ℕ) (hP : 0 < P) (p : (⟨3, ![2, 64, P]⟩ : Shape).Idx → α) :
    (⟨4, ![2, 512, 64, L]⟩ : Shape).Idx → α :=
  fun j => p (ix3 (j 0) (j 2) ⟨min ((j 1).val + (j 3).val) (P - 1), by omega⟩)

/-- The slid result at an index given by its coordinates. -/
theorem slideAll_apply {α : Type} (P L : ℕ) (hP : 0 < P) (p : (⟨3, ![2, 64, P]⟩ : Shape).Idx → α)
    (b : Fin 2) (n : Fin 512) (c : Fin 64) (l : Fin L) (h : n.val + l.val < P) :
    slideAll P L hP p (ix4 b n c l) = p (ix3 b c ⟨n.val + l.val, h⟩) := by
  unfold slideAll
  exact congrArg (fun q => p (ix3 b c q)) (Fin.ext (by show min (n.val + l.val) (P - 1) = n.val + l.val; omega))

end Cert.Windows

end
-- ==== Proof.KernelRegion0.lean ====
/-
  Region 0 (window length 256): what one grid point leaves in its output block.

  At grid coordinates `i = (i₀, i₁)` the body loads a strip of 383 lanes of the padded sequence, starting at
  lane `128·i₀ + 256·i₁`, and stores its lanes `r … r + 255` into row `r` of the block, for `r = 0 … 127`.
  So the block is the sliding block of that strip: entry `(b, r, c, l)` is the padded sequence at
  `(b, c, 128·i₀ + 256·i₁ + r + l)`.
-/
import proofs.«155050_j61091614819052_2_alg».proof.Proof.Gen.KernelIdeal.Frame
import proofs.«155050_j61091614819052_2_alg».proof.Proof.KernelStrip
import Idealize.ShloMosaic.Lib.Writes
import Idealize.ShloMosaic.Lib.Pipeline.Value

noncomputable section

namespace Cert.KernelIdeal.Region0

open Idealize.ShloMosaic Idealize.ShloMosaic.TcCoe Idealize.ShloMosaic.Tactic Idealize.ShloMosaic.ValueIdx
open Idealize.SL.Sem
open Cert.KernelIdeal Cert.KernelIdeal.Gen Cert.Windows

variable {F : FTy → Type} [FloatOps F]

/-- Every store of the body is a row of the sliding block of the loaded strip. -/
theorem pieces (c : Dev nD) (i : grid0.Coords) (arg2 : Memref sig .tc .vmem S2x64x767 .f32) (harg2 : arg2.IsWhole)
    (arg3 : Memref sig .tc .vmem S2x128x64x256 .f32) (harg3 : arg3.IsWhole) (x0 : Vec F S2x64x767 .f32) :
    ∀ p ∈ (kernelRun0_A c i arg2 harg2 arg3 harg3 x0).1, ∀ x : p.1.shape.Idx,
      p.2 x = slideBlock (kernelRun0_A.sl.r c i arg2 harg2 x0) (p.1.emb x) := by
  unfold kernelRun0_A
  dsimp only
  repeat' (refine List.forall_mem_cons.mpr ⟨?_, ?_⟩)
  all_goals first
    | (intro x; dsimp only at x ⊢; exact row_piece _ _ _ _ _ x)
    | (intro x; dsimp only at x ⊢; sl_unfold_run_names; exact row_piece _ _ _ _ _ x)
    | (intro p hp; exact absurd hp List.not_mem_nil)

/-- So the block the body leaves is the sliding block of the loaded strip. -/
theorem out_apply (c : Dev nD) (i : grid0.Coords) (arg2 : Memref sig .tc .vmem S2x64x767 .f32) (harg2 : arg2.IsWhole)
    (arg3 : Memref sig .tc .vmem S2x128x64x256 .f32) (harg3 : arg3.IsWhole) (x0 : Vec F S2x64x767 .f32) (y : S2x128x64x256.Idx) :
    out0_A_1 c i arg2 harg2 arg3 harg3 x0 y = slideBlock (kernelRun0_A.sl.r c i arg2 harg2 x0) y := by
  unfold out0_A_1
  exact View.read_writes_apply_of_pieces _ _ _ _ (pieces c i arg2 harg2 arg3 harg3 x0) y (cover0_A_1 c i arg2 harg2 arg3 harg3 x0 y)

/-- The loaded strip at lane `k` is the input block at lane `128·i₀ + 256·i₁ + k`. -/
theorem strip_apply (c : Dev nD) (i : grid0.Coords) (arg2 : Memref sig .tc .vmem S2x64x767 .f32) (harg2 : arg2.IsWhole)
    (x0 : Vec F S2x64x767 .f32) (b : Fin 2) (ch : Fin 64) (k : Fin 383) :
    kernelRun0_A.sl.r c i arg2 harg2 x0 (ix3 b ch k)
      = x0 (ix3 b ch ⟨min (128 * (i 0).val + 256 * (i 1).val + k.val) 766, by omega⟩) := by
  have hin : (k0_off1 i) (2 : Fin 3) + 383 ≤ 767 := k0_off1_inb i 2
  have hoff : (k0_off1 i) (2 : Fin 3) = 128 * (i 0).val + 256 * (i 1).val := by rw [k0_off1_eq i]; rfl
  have h0 : (k0_off1 i) (0 : Fin 3) = 0 := by rw [k0_off1_eq i]; rfl
  have h1 : (k0_off1 i) (1 : Fin 3) = 0 := by rw [k0_off1_eq i]; rfl
  have hk := k.isLt
  unfold kernelRun0_A.sl.r
  rw [View.readAt_eq_ld, harg2.read_unread]
  unfold k0_pay3
  refine (shapeCast_apply _ _ (ix3 b ch k) (ix3 b ch k) rfl).trans ?_
  refine congrArg x0 (funext fun a => Fin.ext ?_)
  match a with
  | ⟨0, _⟩ => show (k0_off1 i) (0 : Fin 3) + 1 * b.val = b.val; omega
  | ⟨1, _⟩ => show (k0_off1 i) (1 : Fin 3) + 1 * ch.val = ch.val; omega
  | ⟨2, _⟩ => show (k0_off1 i) (2 : Fin 3) + 1 * k.val = min (128 * (i 0).val + 256 * (i 1).val + k.val) 766; omega

/-! ## From blocks to the array -/

variable (V : (c : Dev nD) → (b : Ref sig .tc) → Buf (Elt F) ((c : Thread nD τ).loc b))

/-- The index maps over the grid: the input window is the whole padded sequence at every point; the output block of point
    `(i₀, i₁)` is block `(0, i₀, 0, i₁)`. -/
theorem idx_facts : ∀ t : Fin cfg0.N,
    win0_0.index t (0 : Fin 3) = 0 ∧ win0_0.index t (1 : Fin 3) = 0 ∧ win0_0.index t (2 : Fin 3) = 0
    ∧ win0_1.index t (0 : Fin 4) = 0 ∧ win0_1.index t (1 : Fin 4) = (grid0.coords t 0).val
    ∧ win0_1.index t (2 : Fin 4) = 0 ∧ win0_1.index t (3 : Fin 4) = (grid0.coords t 1).val
    ∧ (grid0.coords t 0).val < 4 ∧ (grid0.coords t 1).val < 1 :=
  (by decide +kernel : ∀ t : Fin grid0.N, _)

/-- Every block of the output array is some point's. -/
theorem idx_onto : ∀ (q0 : Fin 4) (q1 : Fin 1), ∃ t : Fin cfg0.N, win0_1.index t = ![0, q0.val, 0, q1.val] :=
  (by decide +kernel : ∀ (q0 : Fin 4) (q1 : Fin 1), ∃ t : Fin grid0.N, win0_1.index t = ![0, q0.val, 0, q1.val])

/-- What point `t` writes back is block `t` of the padded sequence slid: row `128·i₀ + r`, lane `256·i₁ + l` of the result
    is the padded sequence at lane `128·i₀ + 256·i₁ + r + l`. -/
theorem flushed_eq (c : Dev nD) (t : Fin cfg0.N) :
    (dat0 V c).flushed 1 t
      = ((cfg0.win 1).blk t).view.read (Elt F) (slideAll (α := Elt F .f32) 767 256 (by decide) (V c main_v0)) := by
  show (cfg0.win 1).cut (grid0.coords t) ((dat0 V c).after 1 t) = _
  rw [after0_1]
  unfold outsAt0
  obtain ⟨e0, e1, e2, f0, f1, f2, f3, g0, g1⟩ := idx_facts t
  funext y
  show out0_A_1 c (grid0.coords t) (ms0_0 t) (hs0_0 t) (ms0_1 t) (hs0_1 t) (iblk0 V c 0 t) y
      = slideAll (α := Elt F .f32) 767 256 (by decide) (V c main_v0) (((cfg0.win 1).blk t).view.emb y)
  refine (out_apply c (grid0.coords t) (ms0_0 t) (hs0_0 t) (ms0_1 t) (hs0_1 t) (iblk0 V c 0 t) y).trans ?_
  obtain ⟨b, r, ch, l, rfl⟩ : ∃ (b : Fin 2) (r : Fin 128) (ch : Fin 64) (l : Fin 256), y = ix4 b r ch l :=
    ⟨y 0, y 1, y 2, y 3, eq_ix4 (n0 := 2) (n1 := 128) (n2 := 64) (n3 := 256) y⟩
  have hb := b.isLt
  have hr := r.isLt
  have hch := ch.isLt
  have hl := l.isLt
  refine (slideBlock_apply _ b r ch l).trans ?_
  refine (strip_apply c (grid0.coords t) (ms0_0 t) (hs0_0 t) (iblk0 V c 0 t) b ch ⟨r.val + l.val, by omega⟩).trans ?_
  show V c main_v0 (((cfg0.win 0).blk t).view.emb
      (ix3 b ch ⟨min (128 * (grid0.coords t 0).val + 256 * (grid0.coords t 1).val + (r.val + l.val)) 766, by omega⟩)) = _
  unfold slideAll
  refine congrArg (V c main_v0) (funext fun a => Fin.ext ?_)
  match a with
  | ⟨0, _⟩ =>
    show win0_0.index t (0 : Fin 3) * 2 + 1 * b.val = win0_1.index t (0 : Fin 4) * 2 + 1 * b.val
    omega
  | ⟨1, _⟩ =>
    show win0_0.index t (1 : Fin 3) * 64 + 1 * ch.val = win0_1.index t (2 : Fin 4) * 64 + 1 * ch.val
    omega
  | ⟨2, _⟩ =>
    show win0_0.index t (2 : Fin 3) * 767
          + 1 * min (128 * (grid0.coords t 0).val + 256 * (grid0.coords t 1).val + (r.val + l.val)) 766
        = min ((win0_1.index t (1 : Fin 4) * 128 + 1 * r.val) + (win0_1.index t (3 : Fin 4) * 256 + 1 * l.val)) (767 - 1)
    omega

/-- An index of the output array is in point `t`'s block iff each coordinate is in the block's range on its axis. -/
theorem mem_blk (t : Fin cfg0.N) (i : S2x512x64x256.Idx) :
    i ∈ ((cfg0.win 1).blk t).view.set ↔ ∀ a : Fin 4, win0_1.index t a * S2x128x64x256.size a ≤ (i a).val
      ∧ (i a).val < win0_1.index t a * S2x128x64x256.size a + S2x128x64x256.size a := by
  show i ∈ ((View.whole main_v1).slice (win0_1.rect t)).set ↔ _
  rw [View.set_slice_whole, Rect.mem_set_unit]
  exact Iff.rfl

/-- The blocks fill the output array: row `n`, lane `l` lies in the block of point `(n / 128, l / 256)`. -/
theorem cover (i : S2x512x64x256.Idx) :
    ∃ t : Fin cfg0.N, (cfg0.win 1).flush t = true ∧ i ∈ ((cfg0.win 1).blk t).view.set := by
  have hi0 : (i 0).val < 2 := (i 0).isLt
  have hi1 : (i 1).val < 512 := (i 1).isLt
  have hi2 : (i 2).val < 64 := (i 2).isLt
  have hi3 : (i 3).val < 256 := (i 3).isLt
  obtain ⟨t, ht⟩ := idx_onto ⟨(i 1).val / 128, by omega⟩ ⟨(i 3).val / 256, by omega⟩
  have q0 : win0_1.index t (0 : Fin 4) = 0 := congrFun ht 0
  have q1 : win0_1.index t (1 : Fin 4) = (i 1).val / 128 := congrFun ht 1
  have q2 : win0_1.index t (2 : Fin 4) = 0 := congrFun ht 2
  have q3 : win0_1.index t (3 : Fin 4) = (i 3).val / 256 := congrFun ht 3
  refine ⟨t, flush0_1 t, ?_⟩
  rw [mem_blk]
  intro a
  match a with
  | ⟨0, _⟩ =>
    show win0_1.index t (0 : Fin 4) * 2 ≤ (i 0).val ∧ (i 0).val < win0_1.index t (0 : Fin 4) * 2 + 2
    omega
  | ⟨1, _⟩ =>
    show win0_1.index t (1 : Fin 4) * 128 ≤ (i 1).val ∧ (i 1).val < win0_1.index t (1 : Fin 4) * 128 + 128
    omega
  | ⟨2, _⟩ =>
    show win0_1.index t (2 : Fin 4) * 64 ≤ (i 2).val ∧ (i 2).val < win0_1.index t (2 : Fin 4) * 64 + 64
    omega
  | ⟨3, _⟩ =>
    show win0_1.index t (3 : Fin 4) * 256 ≤ (i 3).val ∧ (i 3).val < win0_1.index t (3 : Fin 4) * 256 + 256
    omega

/-- The output array after the region: the padded sequence, as the region finds it, slid. -/
theorem final (c : Dev nD) :
    (dat0 V c).arrAt 1 cfg0.N = slideAll (α := Elt F .f32) 767 256 (by decide) (V c main_v0) :=
  (dat0 V c).arrAt_eq_of_cover 1 _ (fun t _ => flushed_eq V c t) cover

end Cert.KernelIdeal.Region0

end
-- ==== Proof.KernelRegion1.lean ====
/-
  Region 1 (window length 1024): what one grid point leaves in its output block.

  At grid coordinates `i = (i₀, i₁)` the body loads a strip of 383 lanes of the padded sequence, starting at
  lane `128·i₀ + 256·i₁`, and stores its lanes `r … r + 255` into row `r` of the block, for `r = 0 … 127`.
  So the block is the sliding block of that strip: entry `(b, r, c, l)` is the padded sequence at
  `(b, c, 128·i₀ + 256·i₁ + r + l)`.
-/
import proofs.«155050_j61091614819052_2_alg».proof.Proof.Gen.KernelIdeal.Frame
import proofs.«155050_j61091614819052_2_alg».proof.Proof.KernelStrip
import Idealize.ShloMosaic.Lib.Writes
import Idealize.ShloMosaic.Lib.Pipeline.Value

noncomputable section

namespace Cert.KernelIdeal.Region1

open Idealize.ShloMosaic Idealize.ShloMosaic.TcCoe Idealize.ShloMosaic.Tactic Idealize.ShloMosaic.ValueIdx
open Idealize.SL.Sem
open Cert.KernelIdeal Cert.KernelIdeal.Gen Cert.Windows

variable {F : FTy → Type} [FloatOps F]

/-- Every store of the body is a row of the sliding block of the loaded strip. -/
theorem pieces (c : Dev nD) (i : grid1.Coords) (arg2 : Memref sig .tc .vmem S2x64x1535 .f32) (harg2 : arg2.IsWhole)
    (arg3 : Memref sig .tc .vmem S2x128x64x256 .f32) (harg3 : arg3.IsWhole) (x0 : Vec F S2x64x1535 .f32) :
    ∀ p ∈ (kernelRun1_A c i arg2 harg2 arg3 harg3 x0).1, ∀ x : p.1.shape.Idx,
      p.2 x = slideBlock (kernelRun1_A.sl.r c i arg2 harg2 x0) (p.1.emb x) := by
  unfold kernelRun1_A
  dsimp only
  repeat' (refine List.forall_mem_cons.mpr ⟨?_, ?_⟩)
  all_goals first
    | (intro x; dsimp only at x ⊢; exact row_piece _ _ _ _ _ x)
    | (intro x; dsimp only at x ⊢; sl_unfold_run_names; exact row_piece _ _ _ _ _ x)
    | (intro p hp; exact absurd hp List.not_mem_nil)

/-- So the block the body leaves is the sliding block of the loaded strip. -/
theorem out_apply (c : Dev nD) (i : grid1.Coords) (arg2 : Memref sig .tc .vmem S2x64x1535 .f32) (harg2 : arg2.IsWhole)
    (arg3 : Memref sig .tc .vmem S2x128x64x256 .f32) (harg3 : arg3.IsWhole) (x0 : Vec F S2x64x1535 .f32) (y : S2x128x64x256.Idx) :
    out1_A_1 c i arg2 harg2 arg3 harg3 x0 y = slideBlock (kernelRun1_A.sl.r c i arg2 harg2 x0) y := by
  unfold out1_A_1
  exact View.read_writes_apply_of_pieces _ _ _ _ (pieces c i arg2 harg2 arg3 harg3 x0) y (cover1_A_1 c i arg2 harg2 arg3 harg3 x0 y)

/-- The loaded strip at lane `k` is the input block at lane `128·i₀ + 256·i₁ + k`. -/
theorem strip_apply (c : Dev nD) (i : grid1.Coords) (arg2 : Memref sig .tc .vmem S2x64x1535 .f32) (harg2 : arg2.IsWhole)
    (x0 : Vec F S2x64x1535 .f32) (b : Fin 2) (ch : Fin 64) (k : Fin 383) :
    kernelRun1_A.sl.r c i arg2 harg2 x0 (ix3 b ch k)
      = x0 (ix3 b ch ⟨min (128 * (i 0).val + 256 * (i 1).val + k.val) 1534, by omega⟩) := by
  have hin : (k1_off1 i) (2 : Fin 3) + 383 ≤ 1535 := k1_off1_inb i 2
  have hoff : (k1_off1 i) (2 : Fin 3) = 128 * (i 0).val + 256 * (i 1).val := by rw [k1_off1_eq i]; rfl
  have h0 : (k1_off1 i) (0 : Fin 3) = 0 := by rw [k1_off1_eq i]; rfl
  have h1 : (k1_off1 i) (1 : Fin 3) = 0 := by rw [k1_off1_eq i]; rfl
  have hk := k.isLt
  unfold kernelRun1_A.sl.r
  rw [View.readAt_eq_ld, harg2.read_unread]
  unfold k1_pay3
  refine (shapeCast_apply _ _ (ix3 b ch k) (ix3 b ch k) rfl).trans ?_
  refine congrArg x0 (funext fun a => Fin.ext ?_)
  match a with
  | ⟨0, _⟩ => show (k1_off1 i) (0 : Fin 3) + 1 * b.val = b.val; omega
  | ⟨1, _⟩ => show (k1_off1 i) (1 : Fin 3) + 1 * ch.val = ch.val; omega
  | ⟨2, _⟩ => show (k1_off1 i) (2 : Fin 3) + 1 * k.val = min (128 * (i 0).val + 256 * (i 1).val + k.val) 1534; omega

/-! ## From blocks to the array -/

variable (V : (c : Dev nD) → (b : Ref sig .tc) → Buf (Elt F) ((c : Thread nD τ).loc b))

/-- The index maps over the grid: the input window is the whole padded sequence at every point; the output block of point
    `(i₀, i₁)` is block `(0, i₀, 0, i₁)`. -/
theorem idx_facts : ∀ t : Fin cfg1.N,
    win1_0.index t (0 : Fin 3) = 0 ∧ win1_0.index t (1 : Fin 3) = 0 ∧ win1_0.index t (2 : Fin 3) = 0
    ∧ win1_1.index t (0 : Fin 4) = 0 ∧ win1_1.index t (1 : Fin 4) = (grid1.coords t 0).val
    ∧ win1_1.index t (2 : Fin 4) = 0 ∧ win1_1.index t (3 : Fin 4) = (grid1.coords t 1).val
    ∧ (grid1.coords t 0).val < 4 ∧ (grid1.coords t 1).val < 4 :=
  (by decide +kernel : ∀ t : Fin grid1.N, _)

/-- Every block of the output array is some point's. -/
theorem idx_onto : ∀ (q0 : Fin 4) (q1 : Fin 4), ∃ t : Fin cfg1.N, win1_1.index t = ![0, q0.val, 0, q1.val] :=
  (by decide +kernel : ∀ (q0 : Fin 4) (q1 : Fin 4), ∃ t : Fin grid1.N, win1_1.index t = ![0, q0.val, 0, q1.val])

/-- What point `t` writes back is block `t` of the padded sequence slid: row `128·i₀ + r`, lane `256·i₁ + l` of the result
    is the padded sequence at lane `128·i₀ + 256·i₁ + r + l`. -/
theorem flushed_eq (c : Dev nD) (t : Fin cfg1.N) :
    (dat1 V c).flushed 1 t
      = ((cfg1.win 1).blk t).view.read (Elt F) (slideAll (α := Elt F .f32) 1535 1024 (by decide) (V c main_v2)) := by
  show (cfg1.win 1).cut (grid1.coords t) ((dat1 V c).after 1 t) = _
  rw [after1_1]
  unfold outsAt1
  obtain ⟨e0, e1, e2, f0, f1, f2, f3, g0, g1⟩ := idx_facts t
  funext y
  show out1_A_1 c (grid1.coords t) (ms1_0 t) (hs1_0 t) (ms1_1 t) (hs1_1 t) (iblk1 V c 0 t) y
      = slideAll (α := Elt F .f32) 1535 1024 (by decide) (V c main_v2) (((cfg1.win 1).blk t).view.emb y)
  refine (out_apply c (grid1.coords t) (ms1_0 t) (hs1_0 t) (ms1_1 t) (hs1_1 t) (iblk1 V c 0 t) y).trans ?_
  obtain ⟨b, r, ch, l, rfl⟩ : ∃ (b : Fin 2) (r : Fin 128) (ch : Fin 64) (l : Fin 256), y = ix4 b r ch l :=
    ⟨y 0, y 1, y 2, y 3, eq_ix4 (n0 := 2) (n1 := 128) (n2 := 64) (n3 := 256) y⟩
  have hb := b.isLt
  have hr := r.isLt
  have hch := ch.isLt
  have hl := l.isLt
  refine (slideBlock_apply _ b r ch l).trans ?_
  refine (strip_apply c (grid1.coords t) (ms1_0 t) (hs1_0 t) (iblk1 V c 0 t) b ch ⟨r.val + l.val, by omega⟩).trans ?_
  show V c main_v2 (((cfg1.win 0).blk t).view.emb
      (ix3 b ch ⟨min (128 * (grid1.coords t 0).val + 256 * (grid1.coords t 1).val + (r.val + l.val)) 1534, by omega⟩)) = _
  unfold slideAll
  refine congrArg (V c main_v2) (funext fun a => Fin.ext ?_)
  match a with
  | ⟨0, _⟩ =>
    show win1_0.index t (0 : Fin 3) * 2 + 1 * b.val = win1_1.index t (0 : Fin 4) * 2 + 1 * b.val
    omega
  | ⟨1, _⟩ =>
    show win1_0.index t (1 : Fin 3) * 64 + 1 * ch.val = win1_1.index t (2 : Fin 4) * 64 + 1 * ch.val
    omega
  | ⟨2, _⟩ =>
    show win1_0.index t (2 : Fin 3) * 1535
          + 1 * min (128 * (grid1.coords t 0).val + 256 * (grid1.coords t 1).val + (r.val + l.val)) 1534
        = min ((win1_1.index t (1 : Fin 4) * 128 + 1 * r.val) + (win1_1.index t (3 : Fin 4) * 256 + 1 * l.val)) (1535 - 1)
    omega

/-- An index of the output array is in point `t`'s block iff each coordinate is in the block's range on its axis. -/
theorem mem_blk (t : Fin cfg1.N) (i : S2x512x64x1024.Idx) :
    i ∈ ((cfg1.win 1).blk t).view.set ↔ ∀ a : Fin 4, win1_1.index t a * S2x128x64x256.size a ≤ (i a).val
      ∧ (i a).val < win1_1.index t a * S2x128x64x256.size a + S2x128x64x256.size a := by
  show i ∈ ((View.whole main_v3).slice (win1_1.rect t)).set ↔ _
  rw [View.set_slice_whole, Rect.mem_set_unit]
  exact Iff.rfl

/-- The blocks fill the output array: row `n`, lane `l` lies in the block of point `(n / 128, l / 256)`. -/
theorem cover (i : S2x512x64x1024.Idx) :
    ∃ t : Fin cfg1.N, (cfg1.win 1).flush t = true ∧ i ∈ ((cfg1.win 1).blk t).view.set := by
  have hi0 : (i 0).val < 2 := (i 0).isLt
  have hi1 : (i 1).val < 512 := (i 1).isLt
  have hi2 : (i 2).val < 64 := (i 2).isLt
  have hi3 : (i 3).val < 1024 := (i 3).isLt
  obtain ⟨t, ht⟩ := idx_onto ⟨(i 1).val / 128, by omega⟩ ⟨(i 3).val / 256, by omega⟩
  have q0 : win1_1.index t (0 : Fin 4) = 0 := congrFun ht 0
  have q1 : win1_1.index t (1 : Fin 4) = (i 1).val / 128 := congrFun ht 1
  have q2 : win1_1.index t (2 : Fin 4) = 0 := congrFun ht 2
  have q3 : win1_1.index t (3 : Fin 4) = (i 3).val / 256 := congrFun ht 3
  refine ⟨t, flush1_1 t, ?_⟩
  rw [mem_blk]
  intro a
  match a with
  | ⟨0, _⟩ =>
    show win1_1.index t (0 : Fin 4) * 2 ≤ (i 0).val ∧ (i 0).val < win1_1.index t (0 : Fin 4) * 2 + 2
    omega
  | ⟨1, _⟩ =>
    show win1_1.index t (1 : Fin 4) * 128 ≤ (i 1).val ∧ (i 1).val < win1_1.index t (1 : Fin 4) * 128 + 128
    omega
  | ⟨2, _⟩ =>
    show win1_1.index t (2 : Fin 4) * 64 ≤ (i 2).val ∧ (i 2).val < win1_1.index t (2 : Fin 4) * 64 + 64
    omega
  | ⟨3, _⟩ =>
    show win1_1.index t (3 : Fin 4) * 256 ≤ (i 3).val ∧ (i 3).val < win1_1.index t (3 : Fin 4) * 256 + 256
    omega

/-- The output array after the region: the padded sequence, as the region finds it, slid. -/
theorem final (c : Dev nD) :
    (dat1 V c).arrAt 1 cfg1.N = slideAll (α := Elt F .f32) 1535 1024 (by decide) (V c main_v2) :=
  (dat1 V c).arrAt_eq_of_cover 1 _ (fun t _ => flushed_eq V c t) cover

end Cert.KernelIdeal.Region1

end
-- ==== Proof.KernelRegion2.lean ====
/-
  Region 2 (window length 512): what one grid point leaves in its output block.

  At grid coordinates `i = (i₀, i₁)` the body loads a strip of 383 lanes of the padded sequence, starting at
  lane `128·i₀ + 256·i₁`, and stores its lanes `r … r + 255` into row `r` of the block, for `r = 0 … 127`.
  So the block is the sliding block of that strip: entry `(b, r, c, l)` is the padded sequence at
  `(b, c, 128·i₀ + 256·i₁ + r + l)`.
-/
import proofs.«155050_j61091614819052_2_alg».proof.Proof.Gen.KernelIdeal.Frame
import proofs.«155050_j61091614819052_2_alg».proof.Proof.KernelStrip
import Idealize.ShloMosaic.Lib.Writes
import Idealize.ShloMosaic.Lib.Pipeline.Value

noncomputable section

namespace Cert.KernelIdeal.Region2

open Idealize.ShloMosaic Idealize.ShloMosaic.TcCoe Idealize.ShloMosaic.Tactic Idealize.ShloMosaic.ValueIdx
open Idealize.SL.Sem
open Cert.KernelIdeal Cert.KernelIdeal.Gen Cert.Windows

variable {F : FTy → Type} [FloatOps F]

/-- Every store of the body is a row of the sliding block of the loaded strip. -/
theorem pieces (c : Dev nD) (i : grid2.Coords) (arg2 : Memref sig .tc .vmem S2x64x1023 .f32) (harg2 : arg2.IsWhole)
    (arg3 : Memref sig .tc .vmem S2x128x64x256 .f32) (harg3 : arg3.IsWhole) (x0 : Vec F S2x64x1023 .f32) :
    ∀ p ∈ (kernelRun2_A c i arg2 harg2 arg3 harg3 x0).1, ∀ x : p.1.shape.Idx,
      p.2 x = slideBlock (kernelRun2_A.sl.r c i arg2 harg2 x0) (p.1.emb x) := by
  unfold kernelRun2_A
  dsimp only
  repeat' (refine List.forall_mem_cons.mpr ⟨?_, ?_⟩)
  all_goals first
    | (intro x; dsimp only at x ⊢; exact row_piece _ _ _ _ _ x)
    | (intro x; dsimp only at x ⊢; sl_unfold_run_names; exact row_piece _ _ _ _ _ x)
    | (intro p hp; exact absurd hp List.not_mem_nil)

/-- So the block the body leaves is the sliding block of the loaded strip. -/
theorem out_apply (c : Dev nD) (i : grid2.Coords) (arg2 : Memref sig .tc .vmem S2x64x1023 .f32) (harg2 : arg2.IsWhole)
    (arg3 : Memref sig .tc .vmem S2x128x64x256 .f32) (harg3 : arg3.IsWhole) (x0 : Vec F S2x64x1023 .f32) (y : S2x128x64x256.Idx) :
    out2_A_1 c i arg2 harg2 arg3 harg3 x0 y = slideBlock (kernelRun2_A.sl.r c i arg2 harg2 x0) y := by
  unfold out2_A_1
  exact View.read_writes_apply_of_pieces _ _ _ _ (pieces c i arg2 harg2 arg3 harg3 x0) y (cover2_A_1 c i arg2 harg2 arg3 harg3 x0 y)

/-- The loaded strip at lane `k` is the input block at lane `128·i₀ + 256·i₁ + k`. -/
theorem strip_apply (c : Dev nD) (i : grid2.Coords) (arg2 : Memref sig .tc .vmem S2x64x1023 .f32) (harg2 : arg2.IsWhole)
    (x0 : Vec F S2x64x1023 .f32) (b : Fin 2) (ch : Fin 64) (k : Fin 383) :
    kernelRun2_A.sl.r c i arg2 harg2 x0 (ix3 b ch k)
      = x0 (ix3 b ch ⟨min (128 * (i 0).val + 256 * (i 1).val + k.val) 1022, by omega⟩) := by
  have hin : (k2_off1 i) (2 : Fin 3) + 383 ≤ 1023 := k2_off1_inb i 2
  have hoff : (k2_off1 i) (2 : Fin 3) = 128 * (i 0).val + 256 * (i 1).val := by rw [k2_off1_eq i]; rfl
  have h0 : (k2_off1 i) (0 : Fin 3) = 0 := by rw [k2_off1_eq i]; rfl
  have h1 : (k2_off1 i) (1 : Fin 3) = 0 := by rw [k2_off1_eq i]; rfl
  have hk := k.isLt
  unfold kernelRun2_A.sl.r
  rw [View.readAt_eq_ld, harg2.read_unread]
  unfold k2_pay3
  refine (shapeCast_apply _ _ (ix3 b ch k) (ix3 b ch k) rfl).trans ?_
  refine congrArg x0 (funext fun a => Fin.ext ?_)
  match a with
  | ⟨0, _⟩ => show (k2_off1 i) (0 : Fin 3) + 1 * b.val = b.val; omega
  | ⟨1, _⟩ => show (k2_off1 i) (1 : Fin 3) + 1 * ch.val = ch.val; omega
  | ⟨2, _⟩ => show (k2_off1 i) (2 : Fin 3) + 1 * k.val = min (128 * (i 0).val + 256 * (i 1).val + k.val) 1022; omega

/-! ## From blocks to the array -/

variable (V : (c : Dev nD) → (b : Ref sig .tc) → Buf (Elt F) ((c : Thread nD τ).loc b))

/-- The index maps over the grid: the input window is the whole padded sequence at every point; the output block of point
    `(i₀, i₁)` is block `(0, i₀, 0, i₁)`. -/
theorem idx_facts : ∀ t : Fin cfg2.N,
    win2_0.index t (0 : Fin 3) = 0 ∧ win2_0.index t (1 : Fin 3) = 0 ∧ win2_0.index t (2 : Fin 3) = 0
    ∧ win2_1.index t (0 : Fin 4) = 0 ∧ win2_1.index t (1 : Fin 4) = (grid2.coords t 0).val
    ∧ win2_1.index t (2 : Fin 4) = 0 ∧ win2_1.index t (3 : Fin 4) = (grid2.coords t 1).val
    ∧ (grid2.coords t 0).val < 4 ∧ (grid2.coords t 1).val < 2 :=
  (by decide +kernel : ∀ t : Fin grid2.N, _)

/-- Every block of the output array is some point's. -/
theorem idx_onto : ∀ (q0 : Fin 4) (q1 : Fin 2), ∃ t : Fin cfg2.N, win2_1.index t = ![0, q0.val, 0, q1.val] :=
  (by decide +kernel : ∀ (q0 : Fin 4) (q1 : Fin 2), ∃ t : Fin grid2.N, win2_1.index t = ![0, q0.val, 0, q1.val])

/-- What point `t` writes back is block `t` of the padded sequence slid: row `128·i₀ + r`, lane `256·i₁ + l` of the result
    is the padded sequence at lane `128·i₀ + 256·i₁ + r + l`. -/
theorem flushed_eq (c : Dev nD) (t : Fin cfg2.N) :
    (dat2 V c).flushed 1 t
      = ((cfg2.win 1).blk t).view.read (Elt F) (slideAll (α := Elt F .f32) 1023 512 (by decide) (V c main_v4)) := by
  show (cfg2.win 1).cut (grid2.coords t) ((dat2 V c).after 1 t) = _
  rw [after2_1]
  unfold outsAt2
  obtain ⟨e0, e1, e2, f0, f1, f2, f3, g0, g1⟩ := idx_facts t
  funext y
  show out2_A_1 c (grid2.coords t) (ms2_0 t) (hs2_0 t) (ms2_1 t) (hs2_1 t) (iblk2 V c 0 t) y
      = slideAll (α := Elt F .f32) 1023 512 (by decide) (V c main_v4) (((cfg2.win 1).blk t).view.emb y)
  refine (out_apply c (grid2.coords t) (ms2_0 t) (hs2_0 t) (ms2_1 t) (hs2_1 t) (iblk2 V c 0 t) y).trans ?_
  obtain ⟨b, r, ch, l, rfl⟩ : ∃ (b : Fin 2) (r : Fin 128) (ch : Fin 64) (l : Fin 256), y = ix4 b r ch l :=
    ⟨y 0, y 1, y 2, y 3, eq_ix4 (n0 := 2) (n1 := 128) (n2 := 64) (n3 := 256) y⟩
  have hb := b.isLt
  have hr := r.isLt
  have hch := ch.isLt
  have hl := l.isLt
  refine (slideBlock_apply _ b r ch l).trans ?_
  refine (strip_apply c (grid2.coords t) (ms2_0 t) (hs2_0 t) (iblk2 V c 0 t) b ch ⟨r.val + l.val, by omega⟩).trans ?_
  show V c main_v4 (((cfg2.win 0).blk t).view.emb
      (ix3 b ch ⟨min (128 * (grid2.coords t 0).val + 256 * (grid2.coords t 1).val + (r.val + l.val)) 1022, by omega⟩)) = _
  unfold slideAll
  refine congrArg (V c main_v4) (funext fun a => Fin.ext ?_)
  match a with
  | ⟨0, _⟩ =>
    show win2_0.index t (0 : Fin 3) * 2 + 1 * b.val = win2_1.index t (0 : Fin 4) * 2 + 1 * b.val
    omega
  | ⟨1, _⟩ =>
    show win2_0.index t (1 : Fin 3) * 64 + 1 * ch.val = win2_1.index t (2 : Fin 4) * 64 + 1 * ch.val
    omega
  | ⟨2, _⟩ =>
    show win2_0.index t (2 : Fin 3) * 1023
          + 1 * min (128 * (grid2.coords t 0).val + 256 * (grid2.coords t 1).val + (r.val + l.val)) 1022
        = min ((win2_1.index t (1 : Fin 4) * 128 + 1 * r.val) + (win2_1.index t (3 : Fin 4) * 256 + 1 * l.val)) (1023 - 1)
    omega

/-- An index of the output array is in point `t`'s block iff each coordinate is in the block's range on its axis. -/
theorem mem_blk (t : Fin cfg2.N) (i : S2x512x64x512.Idx) :
    i ∈ ((cfg2.win 1).blk t).view.set ↔ ∀ a : Fin 4, win2_1.index t a * S2x128x64x256.size a ≤ (i a).val
      ∧ (i a).val < win2_1.index t a * S2x128x64x256.size a + S2x128x64x256.size a := by
  show i ∈ ((View.whole main_v5).slice (win2_1.rect t)).set ↔ _
  rw [View.set_slice_whole, Rect.mem_set_unit]
  exact Iff.rfl

/-- The blocks fill the output array: row `n`, lane `l` lies in the block of point `(n / 128, l / 256)`. -/
theorem cover (i : S2x512x64x512.Idx) :
    ∃ t : Fin cfg2.N, (cfg2.win 1).flush t = true ∧ i ∈ ((cfg2.win 1).blk t).view.set := by
  have hi0 : (i 0).val < 2 := (i 0).isLt
  have hi1 : (i 1).val < 512 := (i 1).isLt
  have hi2 : (i 2).val < 64 := (i 2).isLt
  have hi3 : (i 3).val < 512 := (i 3).isLt
  obtain ⟨t, ht⟩ := idx_onto ⟨(i 1).val / 128, by omega⟩ ⟨(i 3).val / 256, by omega⟩
  have q0 : win2_1.index t (0 : Fin 4) = 0 := congrFun ht 0
  have q1 : win2_1.index t (1 : Fin 4) = (i 1).val / 128 := congrFun ht 1
  have q2 : win2_1.index t (2 : Fin 4) = 0 := congrFun ht 2
  have q3 : win2_1.index t (3 : Fin 4) = (i 3).val / 256 := congrFun ht 3
  refine ⟨t, flush2_1 t, ?_⟩
  rw [mem_blk]
  intro a
  match a with
  | ⟨0, _⟩ =>
    show win2_1.index t (0 : Fin 4) * 2 ≤ (i 0).val ∧ (i 0).val < win2_1.index t (0 : Fin 4) * 2 + 2
    omega
  | ⟨1, _⟩ =>
    show win2_1.index t (1 : Fin 4) * 128 ≤ (i 1).val ∧ (i 1).val < win2_1.index t (1 : Fin 4) * 128 + 128
    omega
  | ⟨2, _⟩ =>
    show win2_1.index t (2 : Fin 4) * 64 ≤ (i 2).val ∧ (i 2).val < win2_1.index t (2 : Fin 4) * 64 + 64
    omega
  | ⟨3, _⟩ =>
    show win2_1.index t (3 : Fin 4) * 256 ≤ (i 3).val ∧ (i 3).val < win2_1.index t (3 : Fin 4) * 256 + 256
    omega

/-- The output array after the region: the padded sequence, as the region finds it, slid. -/
theorem final (c : Dev nD) :
    (dat2 V c).arrAt 1 cfg2.N = slideAll (α := Elt F .f32) 1023 512 (by decide) (V c main_v4) :=
  (dat2 V c).arrAt_eq_of_cover 1 _ (fun t _ => flushed_eq V c t) cover

end Cert.KernelIdeal.Region2

end
-- ==== Proof.KernelPad.lean ====
/-
  The zero padding, and why sliding over it gives the windows.

  The kernel's program pads the sequence along the position axis with `half` zeros in front and `hi` behind, to
  `P = 511 + L` lanes, and the kernel slides over the padded sequence: result `(b, n, c, l)` is padded lane `n + l`.
  Padded lane `k` is `x (b, c, k - half)` for `half ≤ k < half + 512` and zero elsewhere, which is the specification's
  padded sequence; so the slid result is the specification's windows.
-/
import Idealize.ShloMosaic.Lib.KernelVsHost
import proofs.«155050_j61091614819052_2_alg».proof.Proof.Spec
import proofs.«155050_j61091614819052_2_alg».proof.Proof.KernelStrip

noncomputable section

namespace Cert.Windows

open Idealize.ShloMosaic Idealize.ShloMosaic.ValueIdx

/-- The host's padding along the position axis with a padding value that is zero, read at lane `k`: the specification's
    padded sequence. -/
theorem pad_apply (half hi P : ℕ) (x : (⟨3, ![2, 64, 512]⟩ : Shape).Idx → EReal) (v : (⟨0, ![]⟩ : Shape).Idx → EReal)
    (hv : v ix0 = 0)
    (h : (⟨3, ![2, 64, 512]⟩ : Shape).Pads ![0, 0, half] ![0, 0, hi] ![0, 0, 0] ⟨3, ![2, 64, P]⟩)
    (hu : 0 < (⟨0, ![]⟩ : Shape).numel) (b : Fin 2) (c : Fin 64) (k : Fin P) :
    pad ⟨3, ![2, 64, P]⟩ ![0, 0, half] ![0, 0, hi] ![0, 0, 0] x v h hu (ix3 b c k) = paddedAt half x b c k.val := by
  by_cases hk : half ≤ k.val ∧ k.val < half + 512
  · rw [paddedAt_inside half x b c k.val ⟨k.val - half, by omega⟩ (by show k.val = half + (k.val - half); omega)]
    refine pad_apply_of_inside _ _ _ x v h hu (ix3 b c k) (ix3 b c ⟨k.val - half, by omega⟩) fun a => ?_
    match a with
    | ⟨0, _⟩ => show b.val = 0 + b.val * (0 + 1); omega
    | ⟨1, _⟩ => show c.val = 0 + c.val * (0 + 1); omega
    | ⟨2, _⟩ => show k.val = half + (k.val - half) * (0 + 1); omega
  · rw [paddedAt_outside half x b c k.val hk]
    refine (pad_apply_of_not_inside _ _ _ x v h hu (ix3 b c k) (2 : Fin 3) ?_).trans ?_
    · show ¬(half ≤ k.val ∧ (k.val - half) % (0 + 1) = 0 ∧ (k.val - half) / (0 + 1) < 512)
      exact fun hh => hk ⟨hh.1, by have := hh.2.2; omega⟩
    · rw [show Shape.Idx.first hu = ix0 from eq_ix0 _]
      exact hv

/-- Sliding over the zero-padded sequence gives the windows. -/
theorem slide_pad (half hi P L : ℕ) (hPL : P = 511 + L) (hP : 0 < P) (x : (⟨3, ![2, 64, 512]⟩ : Shape).Idx → EReal)
    (v : (⟨0, ![]⟩ : Shape).Idx → EReal) (hv : v ix0 = 0)
    (h : (⟨3, ![2, 64, 512]⟩ : Shape).Pads ![0, 0, half] ![0, 0, hi] ![0, 0, 0] ⟨3, ![2, 64, P]⟩)
    (hu : 0 < (⟨0, ![]⟩ : Shape).numel) :
    slideAll P L hP (pad ⟨3, ![2, 64, P]⟩ ![0, 0, half] ![0, 0, hi] ![0, 0, 0] x v h hu) = windows half L x := by
  funext j
  obtain ⟨b, n, c, l, rfl⟩ : ∃ (b : Fin 2) (n : Fin 512) (c : Fin 64) (l : Fin L), j = ix4 b n c l :=
    ⟨j 0, j 1, j 2, j 3, eq_ix4 j⟩
  have hn := n.isLt
  have hl := l.isLt
  rw [slideAll_apply P L hP _ b n c l (by omega), windows_apply]
  exact pad_apply half hi P x v hv h hu b c ⟨n.val + l.val, by omega⟩

end Cert.Windows

end
-- ==== Proof.KernelRun.lean ====
/-
  The kernel's program run to the end, and its three result arrays read.

  @main is three stretches of host operations (a zero constant and the padding of the argument), each followed by a
  region whose blocks fill one result array. The run below is the launch over those segments with the final
  contents of the three result arrays and of the argument read off the last boundary. Each result array is then
  walked back to the region that wrote it (no later segment writes it), the region's array is the padded sequence slid
  (the region modules), the padded sequence at the region's entry is the host's padding of the argument as launched
  (no segment writes the argument), and sliding over the padding gives the windows.
-/
import proofs.«155050_j61091614819052_2_alg».proof.Proof.Gen.KernelIdeal.Frame
import proofs.«155050_j61091614819052_2_alg».proof.Proof.KernelRegion0
import proofs.«155050_j61091614819052_2_alg».proof.Proof.KernelRegion1
import proofs.«155050_j61091614819052_2_alg».proof.Proof.KernelRegion2
import proofs.«155050_j61091614819052_2_alg».proof.Proof.KernelPad
import Idealize.ShloMosaic.Lib.StableHlo.Run

set_option maxRecDepth 16384

noncomputable section

namespace Cert.KernelIdeal.RunValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Windows

section AnyFloat

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the last boundary's contents read at the three result arrays and at the argument. -/
theorem run_read : θ_run defs (onTc (τ := τ) (main (F := F))) ⟨m, fun _ => 0, ρ⟩ (fun r => ∀ c : Dev nD,
      r.2.mem ((c.tc : Thread nD τ).loc main_v1) = W9 m ρ c (Proc.devRef .tc main_v1)
      ∧ r.2.mem ((c.tc : Thread nD τ).loc main_v3) = W9 m ρ c (Proc.devRef .tc main_v3)
      ∧ r.2.mem ((c.tc : Thread nD τ).loc main_v5) = W9 m ρ c (Proc.devRef .tc main_v5)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v1 (by decide)), h c _ (mem_uc main_v3 (by decide)), h c _ (mem_uc main_v5 (by decide)),
        (h c _ (mem_uc main_arg0 (by decide))).trans (W9_main_arg0 m ρ c)⟩)

/-! ## Each result array walked back to the region that wrote it -/

/-- The third region's array at the end. -/
theorem last_v5 (c : Dev nD) : W9 m ρ c (Proc.devRef .tc main_v5) = (dat2 (V8 m ρ) c).arrAt 1 cfg2.N :=
  W9_arr m ρ c 1

/-- The second region's array is written by nothing after it. -/
theorem last_v3 (c : Dev nD) : W9 m ρ c (Proc.devRef .tc main_v3) = (dat1 (V5 m ρ) c).arrAt 1 cfg1.N :=
  calc W9 m ρ c (Proc.devRef .tc main_v3)
    _ = W8 m ρ c (Proc.devRef .tc main_v3) := W9_of_ne m ρ c main_v3 (by decide)
    _ = W7 m ρ c (Proc.devRef .tc main_v3) := StableHlo.after_of_forall_not_mem _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V5 m ρ) c).arrAt 1 cfg1.N := W6_arr m ρ c 1

/-- The first region's array is written by nothing after it. -/
theorem last_v1 (c : Dev nD) : W9 m ρ c (Proc.devRef .tc main_v1) = (dat0 (V2 m ρ) c).arrAt 1 cfg0.N :=
  calc W9 m ρ c (Proc.devRef .tc main_v1)
    _ = W8 m ρ c (Proc.devRef .tc main_v1) := W9_of_ne m ρ c main_v1 (by decide)
    _ = W7 m ρ c (Proc.devRef .tc main_v1) := StableHlo.after_of_forall_not_mem _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v1) := StableHlo.after_of_forall_not_mem _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V2 m ρ) c).arrAt 1 cfg0.N := W3_arr m ρ c 1

/-! ## The argument, where each padding reads it, is the argument as launched -/

theorem arg_at0 (c : Dev nD) : W0 m ρ c (Proc.devRef .tc main_arg0) = m ((c.tc : Thread nD τ).loc main_arg0) := rfl

theorem arg_at3 (c : Dev nD) : W3 m ρ c (Proc.devRef .tc main_arg0) = m ((c.tc : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := rfl

theorem arg_at6 (c : Dev nD) : W6 m ρ c (Proc.devRef .tc main_arg0) = m ((c.tc : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg0) := arg_at3 m ρ c

end AnyFloat

end Cert.KernelIdeal.RunValue

end
-- ==== Proof.KernelValue.lean ====
/-
  The kernel's results at the ideal instance: each of the three result arrays is the windows of the argument.

  Each region finds, as its padded sequence, the host's padding of the argument by the converted integer zero, which at
  the ideal instance is the real number zero; the region slides over it; so its array is the specification's windows.
-/
import proofs.«155050_j61091614819052_2_alg».proof.Proof.KernelRun

set_option maxRecDepth 16384

noncomputable section

namespace Cert.KernelIdeal.RunValue

open Idealize.ShloMosaic Idealize.ShloMosaic.TcCoe Idealize.ShloMosaic.Tactic Idealize.ShloMosaic.ValueIdx
open Idealize.ShloMosaic.StableHlo
open Idealize.SL.Sem
open Cert.KernelIdeal Cert.KernelIdeal.Gen Cert.Windows

variable (m : (ℓ : Loc nD τ sig) → Buf (Elt Ideal) ℓ) (ρ : Dev nD → PrngReg)

/-- The padding value, the integer zero converted to a float, is zero. -/
theorem pad_value_zero : (sitofp .f32 (constantI S_ 32 0#32) : FVec Ideal S_ .f32) ix0 = 0 :=
  sitofp_zero

/-- The padded sequence as region 0 finds it: the host's padding of the argument as launched, with the converted integer
    zero as the padding value. -/
theorem entry0 (c : Dev nD) :
    V2 m ρ c main_v0
      = pad S2x64x767 ![0, 0, 128] ![0, 0, 127] ![0, 0, 0] (m ((c.tc : Thread nD τ).loc main_arg0))
          (sitofp .f32 (constantI S_ 32 0#32) : FVec Ideal S_ .f32) pads_S2x64x512_S2x64x767_000_000_1281270 h_S_ := by
  show StableHlo.after hostOps0_1 (W1 m ρ c) (Proc.devRef .tc main_v0) = _
  after_results
  show pad S2x64x767 ![0, 0, 128] ![0, 0, 127] ![0, 0, 0] (W0 m ρ c (Proc.devRef .tc main_arg0))
      (sitofp .f32 (constantI S_ 32 0#32) : FVec Ideal S_ .f32) pads_S2x64x512_S2x64x767_000_000_1281270 h_S_ = _
  rw [arg_at0 m ρ c]

/-- Result array of window length 256 at the end of the run: the windows of the argument. -/
theorem out_main_v1 (c : Dev nD) :
    W9 m ρ c (Proc.devRef .tc main_v1) = windows 128 256 (m ((c.tc : Thread nD τ).loc main_arg0)) := by
  rw [last_v1 m ρ c, Region0.final (V2 m ρ) c, entry0 m ρ c]
  exact slide_pad 128 127 767 256 rfl (by decide) _ _ pad_value_zero _ _

/-- The padded sequence as region 1 finds it: the host's padding of the argument as launched, with the converted integer
    zero as the padding value. -/
theorem entry1 (c : Dev nD) :
    V5 m ρ c main_v2
      = pad S2x64x1535 ![0, 0, 512] ![0, 0, 511] ![0, 0, 0] (m ((c.tc : Thread nD τ).loc main_arg0))
          (sitofp .f32 (constantI S_ 32 0#32) : FVec Ideal S_ .f32) pads_S2x64x512_S2x64x1535_000_000_5125110 h_S_ := by
  show StableHlo.after hostOps1_1 (W4 m ρ c) (Proc.devRef .tc main_v2) = _
  after_results
  show pad S2x64x1535 ![0, 0, 512] ![0, 0, 511] ![0, 0, 0] (W3 m ρ c (Proc.devRef .tc main_arg0))
      (sitofp .f32 (constantI S_ 32 0#32) : FVec Ideal S_ .f32) pads_S2x64x512_S2x64x1535_000_000_5125110 h_S_ = _
  rw [arg_at3 m ρ c]

/-- Result array of window length 1024 at the end of the run: the windows of the argument. -/
theorem out_main_v3 (c : Dev nD) :
    W9 m ρ c (Proc.devRef .tc main_v3) = windows 512 1024 (m ((c.tc : Thread nD τ).loc main_arg0)) := by
  rw [last_v3 m ρ c, Region1.final (V5 m ρ) c, entry1 m ρ c]
  exact slide_pad 512 511 1535 1024 rfl (by decide) _ _ pad_value_zero _ _

/-- The padded sequence as region 2 finds it: the host's padding of the argument as launched, with the converted integer
    zero as the padding value. -/
theorem entry2 (c : Dev nD) :
    V8 m ρ c main_v4
      = pad S2x64x1023 ![0, 0, 256] ![0, 0, 255] ![0, 0, 0] (m ((c.tc : Thread nD τ).loc main_arg0))
          (sitofp .f32 (constantI S_ 32 0#32) : FVec Ideal S_ .f32) pads_S2x64x512_S2x64x1023_000_000_2562550 h_S_ := by
  show StableHlo.after hostOps2_1 (W7 m ρ c) (Proc.devRef .tc main_v4) = _
  after_results
  show pad S2x64x1023 ![0, 0, 256] ![0, 0, 255] ![0, 0, 0] (W6 m ρ c (Proc.devRef .tc main_arg0))
      (sitofp .f32 (constantI S_ 32 0#32) : FVec Ideal S_ .f32) pads_S2x64x512_S2x64x1023_000_000_2562550 h_S_ = _
  rw [arg_at6 m ρ c]

/-- Result array of window length 512 at the end of the run: the windows of the argument. -/
theorem out_main_v5 (c : Dev nD) :
    W9 m ρ c (Proc.devRef .tc main_v5) = windows 256 512 (m ((c.tc : Thread nD τ).loc main_arg0)) := by
  rw [last_v5 m ρ c, Region2.final (V8 m ρ) c, entry2 m ρ c]
  exact slide_pad 256 255 1023 512 rfl (by decide) _ _ pad_value_zero _ _

/-- THE RUN AT THE IDEAL INSTANCE: every weakly fair execution of the kernel's program terminates with the three result
    arrays at the windows of lengths 256, 1024 and 512 of the argument, and the argument unchanged. -/
theorem run : θ_run defs (onTc (τ := τ) (main (F := Ideal))) ⟨m, fun _ => 0, ρ⟩ (fun r => ∀ c : Dev nD,
      r.2.mem ((c.tc : Thread nD τ).loc main_v1) = windows 128 256 (m ((c.tc : Thread nD τ).loc main_arg0))
      ∧ r.2.mem ((c.tc : Thread nD τ).loc main_v3) = windows 512 1024 (m ((c.tc : Thread nD τ).loc main_arg0))
      ∧ r.2.mem ((c.tc : Thread nD τ).loc main_v5) = windows 256 512 (m ((c.tc : Thread nD τ).loc main_arg0))
      ∧ r.2.mem ((c.tc : Thread nD τ).loc main_arg0) = m ((c.tc : Thread nD τ).loc main_arg0)) :=
  (θ_run defs _ _).mono (fun r h c => ⟨(h c).1.trans (out_main_v1 m ρ c), (h c).2.1.trans (out_main_v3 m ρ c),
      (h c).2.2.1.trans (out_main_v5 m ρ c), (h c).2.2.2⟩) (run_read m ρ)

end Cert.KernelIdeal.RunValue

end
-- ==== Proof.RefWords.lean ====
/-
  The 32-bit integer facts behind the window positions.

  The position a window entry reads is `n - half + l`, computed on 32-bit two's-complement words from the
  counters `n < 512`, `l < 1024` and the front padding `half ≤ 512`. Its absolute value stays far below `2 ^ 31`, so
  the word read signed IS the integer `n + l - half`: the validity test `0 ≤ · < 512` is the test
  `half ≤ n + l < half + 512` on natural numbers, and where it holds the clamp to `[0, 511]` and the wrap of a
  negative index (never taken after the clamp) leave the position `n + l - half` itself.
-/
import Idealize.ShloMosaic.Lib.Affine
import Idealize.ShloMosaic.Lib.DynamicIndex
import Idealize.ShloMosaic.Lib.ValueIdx

noncomputable section

namespace Cert.ReferenceIdeal.RefValue

open Idealize.ShloMosaic Idealize.ShloMosaic.ValueIdx

/-- The position word: `n - half + l` on 32-bit words. -/
def posWord (n half l : ℕ) : BitVec 32 :=
  IntOp.addi (IntOp.subi (BitVec.ofNat 32 n) (BitVec.ofNat 32 half)) (BitVec.ofNat 32 l)

/-- The validity bit of a position word: `0 ≤ w` and `w < 512`, both signed. -/
def validBit (w : BitVec 32) : BitVec 1 :=
  IntOp.andi (IntOp.cmpi .sge w 0#32) (IntOp.cmpi .slt w 512#32)

/-- The position word clamped into `[0, 511]`: the maximum with `0`, then the minimum with `511`, both signed. -/
def clipWord (w : BitVec 32) : BitVec 32 :=
  IntOp.minsi 511#32 (IntOp.maxsi 0#32 w)

/-- The start index handed to the gather: the clamped word, wrapped by `512` were it negative. -/
def startWord (w : BitVec 32) : BitVec 32 :=
  Scalar.select (IntOp.cmpi .slt (clipWord w) 0#32) (IntOp.addi (clipWord w) 512#32) (clipWord w)

/-- A signed integer between `-2 ^ 31` and `2 ^ 31` is its own balanced remainder modulo `2 ^ 32`. -/
theorem bmod_small (z : ℤ) (h0 : -2147483648 ≤ z) (h1 : z < 2147483648) : z.bmod (2 ^ 32) = z :=
  Int.bmod_eq_of_le (by omega) (by omega)

/-- The position word read signed is the integer `n + l - half`: nothing wraps. -/
theorem toInt_posWord (n half l : ℕ) (hn : n < 512) (hh : half ≤ 512) (hl : l < 1024) :
    (posWord n half l).toInt = (n : ℤ) + l - half := by
  unfold posWord IntOp.addi IntOp.subi
  rw [BitVec.toInt_add, BitVec.toInt_sub, toInt_ofNat_of_lt (k := n) (by omega), toInt_ofNat_of_lt (k := half) (by omega),
    toInt_ofNat_of_lt (k := l) (by omega), bmod_small ((n : ℤ) - half) (by omega) (by omega),
    bmod_small _ (by omega) (by omega)]
  omega

/-- The literal `0` read signed. -/
theorem toInt_zero32 : (0#32 : BitVec 32).toInt = 0 := by decide
/-- The literal `511` read signed. -/
theorem toInt_511 : (511#32 : BitVec 32).toInt = 511 := by decide
/-- The literal `512` read signed. -/
theorem toInt_512 : (512#32 : BitVec 32).toInt = 512 := by decide

/-- The validity bit is set exactly when the signed word lies in `[0, 512)`. -/
theorem validBit_eq_one_iff (w : BitVec 32) : validBit w = 1#1 ↔ 0 ≤ w.toInt ∧ w.toInt < 512 := by
  unfold validBit
  rw [IntOp.andi_eq_one, IntOp.cmpi_sge, IntOp.cmpi_slt, toInt_zero32, toInt_512]

/-- On position words: the validity bit is set exactly when the position `n + l - half` exists. -/
theorem validBit_posWord_iff (n half l : ℕ) (hn : n < 512) (hh : half ≤ 512) (hl : l < 1024) :
    validBit (posWord n half l) = 1#1 ↔ half ≤ n + l ∧ n + l < half + 512 := by
  rw [validBit_eq_one_iff, toInt_posWord n half l hn hh hl]
  omega

/-- The clamp of a word in `[0, 512)` is the word. -/
theorem clipWord_of_valid (w : BitVec 32) (h0 : 0 ≤ w.toInt) (h1 : w.toInt < 512) : clipWord w = w := by
  unfold clipWord IntOp.minsi IntOp.maxsi
  have hmax : (if w.slt 0#32 then 0#32 else w) = w := by
    rw [if_neg]
    rw [BitVec.slt_iff_toInt_lt, toInt_zero32]; omega
  rw [hmax, if_neg]
  rw [BitVec.slt_iff_toInt_lt, toInt_511]; omega

/-- The start index of a word in `[0, 512)` is the word: the clamp does nothing and the wrap is not taken. -/
theorem startWord_of_valid (w : BitVec 32) (h0 : 0 ≤ w.toInt) (h1 : w.toInt < 512) : startWord w = w := by
  unfold startWord
  rw [clipWord_of_valid w h0 h1]
  have hbit : IntOp.cmpi .slt w 0#32 = 0#1 :=
    eq_zero_of_ne_one (fun h => by rw [IntOp.cmpi_slt, toInt_zero32] at h; omega)
  rw [hbit, select_zero]

/-- Where the position exists, the start index read signed, as a natural number, is `n + l - half`, and clamping it
    into `[0, 511]` once more changes nothing. -/
theorem startWord_posWord (n half l : ℕ) (hn : n < 512) (hh : half ≤ 512) (hl : l < 1024)
    (hv : half ≤ n + l ∧ n + l < half + 512) :
    min (startWord (posWord n half l)).toInt.toNat 511 = n + l - half := by
  have ht := toInt_posWord n half l hn hh hl
  rw [startWord_of_valid _ (by omega) (by omega), ht]
  omega

end Cert.ReferenceIdeal.RefValue

end
-- ==== Proof.RefGather.lean ====
/-
  A gather along the last axis of a `[2, 64, 512]` array, read at an index.

  The start indices have shape `[512, L, 1]`; the result has shape `[2, 64, 512, L]`. Axes 0 and 1 of the result are
  offset axes (they run over the whole of the operand's axes 0 and 1); the operand's axis 2 is collapsed, and its
  coordinate is the start index at `[n, l, 0]`, read as a signed integer and clamped into `[0, 511]`. So result
  element `(b, c, n, l)` is the operand at `(b, c, clamp (idx[n, l, 0]))`.
-/
import Idealize.ShloMosaic.Lib.ValueIdx

noncomputable section

namespace Cert.ReferenceIdeal.RefValue

open Idealize.ShloMosaic Idealize.ShloMosaic.ValueIdx

section Gather
variable {α : Type}

/-- The dimension numbers of that gather for window length `L`; their conditions `wf` are decided on literal shapes. -/
abbrev winDims (L : Nat)
    (wf : GatherDims.WF ⟨3, ![2, 64, 512]⟩ ⟨3, ![512, L, 1]⟩ ⟨4, ![2, 64, 512, L]⟩ [0, 1] [2] [] [2] [] 2 ![2, 64, 1]) :
    GatherDims ⟨3, ![2, 64, 512]⟩ ⟨3, ![512, L, 1]⟩ ⟨4, ![2, 64, 512, L]⟩ where
  offsetDims := [0, 1]
  collapsedSliceDims := [2]
  operandBatchingDims := []
  startIndicesBatchingDims := []
  startIndexMap := [2]
  indexVectorDim := 2
  sliceSizes := ![2, 64, 1]
  wf := wf

/-- An operand axis outside the start index map starts its slice at `0`. -/
theorem start_eq_zero {s si t : Shape} (d : GatherDims s si t) {w : Nat} (j : t.Idx) (idx : IVec si w) (a : Fin s.rank)
    (ha : a ∉ d.startIndexMap) : d.start j idx a = 0 := by
  unfold GatherDims.start; rw [dif_neg ha]

/-- THE GATHER READ AT `(b, c, n, l)`: the operand at `(b, c, ·)` with the last coordinate the start index
    `idx[n, l, 0]`, read signed and clamped into `[0, 511]`. -/
theorem gather_win_apply {L w : Nat}
    (wf : GatherDims.WF ⟨3, ![2, 64, 512]⟩ ⟨3, ![512, L, 1]⟩ ⟨4, ![2, 64, 512, L]⟩ [0, 1] [2] [] [2] [] 2 ![2, 64, 1])
    (x : (⟨3, ![2, 64, 512]⟩ : Shape).Idx → α) (idx : IVec ⟨3, ![512, L, 1]⟩ w)
    (b : Fin 2) (c : Fin 64) (n : Fin 512) (l : Fin L) :
    Host.gather (winDims L wf) x idx (ix4 b c n l)
      = x (ix3 b c ⟨min (idx (ix3 n l (0 : Fin 1))).toInt.toNat 511, by omega⟩) := by
  unfold Host.gather
  congr 1
  funext a
  refine Fin.ext ?_
  match a with
  | ⟨0, _⟩ =>
    show (winDims L wf).start (ix4 b c n l) idx 0 + (winDims L wf).batchCoord (ix4 b c n l) 0
      + (winDims L wf).offCoord (ix4 b c n l) 0 = b.val
    rw [start_eq_zero _ _ _ _ (by show (0 : Fin 3) ∉ ([2] : List (Fin 3)); decide),
      GatherDims.batchCoord_eq_zero _ _ _ List.not_mem_nil]
    simp only [Nat.zero_add]
    unfold GatherDims.offCoord
    rw [dif_pos ((GatherDims.mem_sKept _ _).2 ⟨by show (0 : Fin 3) ∉ ([2] : List (Fin 3)); decide, List.not_mem_nil⟩)]
    rfl
  | ⟨1, _⟩ =>
    show (winDims L wf).start (ix4 b c n l) idx 1 + (winDims L wf).batchCoord (ix4 b c n l) 1
      + (winDims L wf).offCoord (ix4 b c n l) 1 = c.val
    rw [start_eq_zero _ _ _ _ (by show (1 : Fin 3) ∉ ([2] : List (Fin 3)); decide),
      GatherDims.batchCoord_eq_zero _ _ _ List.not_mem_nil]
    simp only [Nat.zero_add]
    unfold GatherDims.offCoord
    rw [dif_pos ((GatherDims.mem_sKept _ _).2 ⟨by show (1 : Fin 3) ∉ ([2] : List (Fin 3)); decide, List.not_mem_nil⟩)]
    rfl
  | ⟨2, _⟩ =>
    show (winDims L wf).start (ix4 b c n l) idx 2 + (winDims L wf).batchCoord (ix4 b c n l) 2
      + (winDims L wf).offCoord (ix4 b c n l) 2 = min (idx (ix3 n l (0 : Fin 1))).toInt.toNat 511
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (winDims L wf).startIndexMap from List.mem_singleton.mpr rfl)]
    have hsi : (winDims L wf).siIdx (ix4 b c n l) ⟨List.idxOf (2 : Fin 3) (winDims L wf).startIndexMap,
        List.idxOf_lt_length_iff.2 (List.mem_singleton.mpr rfl)⟩ = ix3 n l (0 : Fin 1) := by
      funext e; refine Fin.ext ?_
      match e with
      | ⟨0, _⟩ => rfl
      | ⟨1, _⟩ => rfl
      | ⟨2, _⟩ => rfl
    rw [hsi]
    rfl

/-- The same, with the clamped start index named: if it is the position `p`, the gather reads the operand at `(b, c, p)`. -/
theorem gather_win_apply_of_eq {L w : Nat}
    (wf : GatherDims.WF ⟨3, ![2, 64, 512]⟩ ⟨3, ![512, L, 1]⟩ ⟨4, ![2, 64, 512, L]⟩ [0, 1] [2] [] [2] [] 2 ![2, 64, 1])
    (x : (⟨3, ![2, 64, 512]⟩ : Shape).Idx → α) (idx : IVec ⟨3, ![512, L, 1]⟩ w)
    (b : Fin 2) (c : Fin 64) (n : Fin 512) (l : Fin L) (p : Fin 512)
    (hp : min (idx (ix3 n l (0 : Fin 1))).toInt.toNat 511 = p.val) :
    Host.gather (winDims L wf) x idx (ix4 b c n l) = x (ix3 b c p) :=
  (gather_win_apply wf x idx b c n l).trans (congrArg (fun q => x (ix3 b c q)) (Fin.ext hp))

end Gather

end Cert.ReferenceIdeal.RefValue

end
-- ==== Proof.RefChainA.lean ====
/-
  The reference's window of length 256 (front padding 128), one operation at a time, read at coordinates.

  At `(n, l)` the index array is the position word `n - 128 + l`; its validity bit, its clamp into `[0, 511]` and
  the start index handed to the gather are the words of the same names over it. The gather reads the sequence at
  `(b, c, ·)` with the last coordinate the clamped start index; the select keeps it where the validity bit is set and
  puts the zero constant elsewhere; the transposition exchanges the coordinates `c` and `n`.
-/
import proofs.«155050_j61091614819052_2_alg».proof.Proof.Gen.ReferenceIdeal.Read
import proofs.«155050_j61091614819052_2_alg».proof.Proof.RefWords
import proofs.«155050_j61091614819052_2_alg».proof.Proof.RefGather

noncomputable section

namespace Cert.ReferenceIdeal.RefValue

open Cert.ReferenceIdeal Cert.ReferenceIdeal.Read Cert.ReferenceIdeal.Gen Idealize.ShloMosaic Idealize.ShloMosaic.ValueIdx

section Chain256_24
variable {F : FTy → Type} [FloatOps F]

/-- The index array at `(n, l)` is the position word. -/
theorem v8_at (n : Fin 512) (l : Fin 256) : val_main_v8 (F := F) (ix2 n l) = posWord n.val 128 l.val := by
  rw [val_main_v8_apply, val_main_v6_apply, val_main_v3_apply, val_main_v1_apply, val_main_v0_apply,
    val_main_v2_apply, val_main_c_apply, val_main_v7_apply, val_main_v5_apply, val_main_v4_apply]
  rfl

/-- The validity array at `(n, l)` is the position word's validity bit. -/
theorem v13_at (n : Fin 512) (l : Fin 256) :
    val_main_v13 (F := F) (ix2 n l) = validBit (posWord n.val 128 l.val) := by
  rw [val_main_v13_apply, val_main_v10_apply, val_main_v12_apply, val_main_v9_apply, val_main_c_0_apply,
    val_main_v11_apply, val_main_c_1_apply, v8_at]
  rfl

/-- The clamped index array at `(n, l)` is the position word's clamp. -/
theorem v14_at (n : Fin 512) (l : Fin 256) :
    val_main_v14 (F := F) (ix2 n l) = clipWord (posWord n.val 128 l.val) := by
  rw [val_main_v14_apply, val_main_call0_v4_apply, val_main_call0_v3_apply, val_main_c_3_apply,
    val_main_call0_v2_apply, val_main_call0_v1_apply, val_main_call0_v0_apply, val_main_c_2_apply, v8_at]
  rfl

/-- The start-index array at `(n, l)` is the position word's start index. -/
theorem v19_at (n : Fin 512) (l : Fin 256) :
    val_main_v19 (F := F) (ix2 n l) = startWord (posWord n.val 128 l.val) := by
  rw [val_main_v19_apply, val_main_v16_apply, val_main_v18_apply, val_main_v15_apply, val_main_c_4_apply,
    val_main_v17_apply, val_main_c_5_apply, v14_at]
  rfl

/-- The start indices as a `[512, 256, 1]` array at `(n, l, 0)`. -/
theorem v20_at (n : Fin 512) (l : Fin 256) :
    val_main_v20 (F := F) (ix3 n l (0 : Fin 1)) = startWord (posWord n.val 128 l.val) := by
  rw [val_main_v20_apply]
  have hi : idx_main_v20 (ix3 n l (0 : Fin 1)) = ix2 n l := by
    funext a; match a with | ⟨0, _⟩ => rfl | ⟨1, _⟩ => rfl
  rw [hi, v19_at]

/-- The gathered array at `(b, c, n, l)`, where the position `n + l - 128` exists: the sequence there. -/
theorem v21_at (x : (⟨S2x64x512, .f32⟩ : BufTy).Contents (Elt F)) (b : Fin 2) (c : Fin 64) (n : Fin 512) (l : Fin 256)
    (p : Fin 512) (hp : n.val + l.val = 128 + p.val) :
    val_main_v21 (F := F) x (ix4 b c n l) = x (ix3 b c p) := by
  refine gather_win_apply_of_eq _ x (val_main_v20 (F := F)) b c n l p ?_
  rw [v20_at, startWord_posWord n.val 128 l.val n.isLt (by omega) (by have := l.isLt; omega)
    ⟨by omega, by have := p.isLt; omega⟩]
  omega

/-- The validity bit broadcast to `[2, 64, 512, 256]`, at `(b, c, n, l)`. -/
theorem call1_v0_at (b : Fin 2) (c : Fin 64) (n : Fin 512) (l : Fin 256) :
    val_main_call1_v0 (F := F) (ix4 b c n l) = validBit (posWord n.val 128 l.val) := by
  rw [val_main_call1_v0_apply, val_main_v22_apply]
  have hi : idx_main_v22 (idx_main_call1_v0 (ix4 b c n l)) = ix2 n l := by
    funext a; match a with | ⟨0, _⟩ => rfl | ⟨1, _⟩ => rfl
  rw [hi, v13_at]

/-- The selected array at `(b, c, n, l)`: the gathered element under the validity bit, the zero constant elsewhere. -/
theorem v23_at (x : (⟨S2x64x512, .f32⟩ : BufTy).Contents (Elt F)) (b : Fin 2) (c : Fin 64) (n : Fin 512) (l : Fin 256) :
    val_main_v23 (F := F) x (ix4 b c n l)
      = Scalar.select (validBit (posWord n.val 128 l.val)) (val_main_v21 (F := F) x (ix4 b c n l))
          (FloatOps.ofBits .f32 0x00000000#32) := by
  rw [val_main_v23_apply, call1_v0_at, val_main_call1_v1_apply, val_main_cst_apply]

/-- The result at `(b, n, c, l)` is the selected array at `(b, c, n, l)`. -/
theorem v24_at (x : (⟨S2x64x512, .f32⟩ : BufTy).Contents (Elt F)) (b : Fin 2) (n : Fin 512) (c : Fin 64) (l : Fin 256) :
    val_main_v24 (F := F) x (ix4 b n c l) = val_main_v23 (F := F) x (ix4 b c n l) := by
  rw [val_main_v24_apply]
  have hi : idx_main_v24 (ix4 b n c l) = ix4 b c n l := by
    funext a; match a with | ⟨0, _⟩ => rfl | ⟨1, _⟩ => rfl | ⟨2, _⟩ => rfl | ⟨3, _⟩ => rfl
  rw [hi]

end Chain256_24

end Cert.ReferenceIdeal.RefValue

end
-- ==== Proof.RefChainB.lean ====
/-
  The reference's window of length 1024 (front padding 512), one operation at a time, read at coordinates.

  At `(n, l)` the index array is the position word `n - 512 + l`; its validity bit, its clamp into `[0, 511]` and
  the start index handed to the gather are the words of the same names over it. The gather reads the sequence at
  `(b, c, ·)` with the last coordinate the clamped start index; the select keeps it where the validity bit is set and
  puts the zero constant elsewhere; the transposition exchanges the coordinates `c` and `n`.
-/
import proofs.«155050_j61091614819052_2_alg».proof.Proof.Gen.ReferenceIdeal.Read
import proofs.«155050_j61091614819052_2_alg».proof.Proof.RefWords
import proofs.«155050_j61091614819052_2_alg».proof.Proof.RefGather

noncomputable section

namespace Cert.ReferenceIdeal.RefValue

open Cert.ReferenceIdeal Cert.ReferenceIdeal.Read Cert.ReferenceIdeal.Gen Idealize.ShloMosaic Idealize.ShloMosaic.ValueIdx

section Chain1024_49
variable {F : FTy → Type} [FloatOps F]

/-- The index array at `(n, l)` is the position word. -/
theorem v33_at (n : Fin 512) (l : Fin 1024) : val_main_v33 (F := F) (ix2 n l) = posWord n.val 512 l.val := by
  rw [val_main_v33_apply, val_main_v31_apply, val_main_v28_apply, val_main_v26_apply, val_main_v25_apply,
    val_main_v27_apply, val_main_c_6_apply, val_main_v32_apply, val_main_v30_apply, val_main_v29_apply]
  rfl

/-- The validity array at `(n, l)` is the position word's validity bit. -/
theorem v38_at (n : Fin 512) (l : Fin 1024) :
    val_main_v38 (F := F) (ix2 n l) = validBit (posWord n.val 512 l.val) := by
  rw [val_main_v38_apply, val_main_v35_apply, val_main_v37_apply, val_main_v34_apply, val_main_c_7_apply,
    val_main_v36_apply, val_main_c_8_apply, v33_at]
  rfl

/-- The clamped index array at `(n, l)` is the position word's clamp. -/
theorem v39_at (n : Fin 512) (l : Fin 1024) :
    val_main_v39 (F := F) (ix2 n l) = clipWord (posWord n.val 512 l.val) := by
  rw [val_main_v39_apply, val_main_call2_v4_apply, val_main_call2_v3_apply, val_main_c_10_apply,
    val_main_call2_v2_apply, val_main_call2_v1_apply, val_main_call2_v0_apply, val_main_c_9_apply, v33_at]
  rfl

/-- The start-index array at `(n, l)` is the position word's start index. -/
theorem v44_at (n : Fin 512) (l : Fin 1024) :
    val_main_v44 (F := F) (ix2 n l) = startWord (posWord n.val 512 l.val) := by
  rw [val_main_v44_apply, val_main_v41_apply, val_main_v43_apply, val_main_v40_apply, val_main_c_11_apply,
    val_main_v42_apply, val_main_c_12_apply, v39_at]
  rfl

/-- The start indices as a `[512, 1024, 1]` array at `(n, l, 0)`. -/
theorem v45_at (n : Fin 512) (l : Fin 1024) :
    val_main_v45 (F := F) (ix3 n l (0 : Fin 1)) = startWord (posWord n.val 512 l.val) := by
  rw [val_main_v45_apply]
  have hi : idx_main_v45 (ix3 n l (0 : Fin 1)) = ix2 n l := by
    funext a; match a with | ⟨0, _⟩ => rfl | ⟨1, _⟩ => rfl
  rw [hi, v44_at]

/-- The gathered array at `(b, c, n, l)`, where the position `n + l - 512` exists: the sequence there. -/
theorem v46_at (x : (⟨S2x64x512, .f32⟩ : BufTy).Contents (Elt F)) (b : Fin 2) (c : Fin 64) (n : Fin 512) (l : Fin 1024)
    (p : Fin 512) (hp : n.val + l.val = 512 + p.val) :
    val_main_v46 (F := F) x (ix4 b c n l) = x (ix3 b c p) := by
  refine gather_win_apply_of_eq _ x (val_main_v45 (F := F)) b c n l p ?_
  rw [v45_at, startWord_posWord n.val 512 l.val n.isLt (by omega) (by have := l.isLt; omega)
    ⟨by omega, by have := p.isLt; omega⟩]
  omega

/-- The validity bit broadcast to `[2, 64, 512, 1024]`, at `(b, c, n, l)`. -/
theorem call3_v0_at (b : Fin 2) (c : Fin 64) (n : Fin 512) (l : Fin 1024) :
    val_main_call3_v0 (F := F) (ix4 b c n l) = validBit (posWord n.val 512 l.val) := by
  rw [val_main_call3_v0_apply, val_main_v47_apply]
  have hi : idx_main_v47 (idx_main_call3_v0 (ix4 b c n l)) = ix2 n l := by
    funext a; match a with | ⟨0, _⟩ => rfl | ⟨1, _⟩ => rfl
  rw [hi, v38_at]

/-- The selected array at `(b, c, n, l)`: the gathered element under the validity bit, the zero constant elsewhere. -/
theorem v48_at (x : (⟨S2x64x512, .f32⟩ : BufTy).Contents (Elt F)) (b : Fin 2) (c : Fin 64) (n : Fin 512) (l : Fin 1024) :
    val_main_v48 (F := F) x (ix4 b c n l)
      = Scalar.select (validBit (posWord n.val 512 l.val)) (val_main_v46 (F := F) x (ix4 b c n l))
          (FloatOps.ofBits .f32 0x00000000#32) := by
  rw [val_main_v48_apply, call3_v0_at, val_main_call3_v1_apply, val_main_cst_13_apply]

/-- The result at `(b, n, c, l)` is the selected array at `(b, c, n, l)`. -/
theorem v49_at (x : (⟨S2x64x512, .f32⟩ : BufTy).Contents (Elt F)) (b : Fin 2) (n : Fin 512) (c : Fin 64) (l : Fin 1024) :
    val_main_v49 (F := F) x (ix4 b n c l) = val_main_v48 (F := F) x (ix4 b c n l) := by
  rw [val_main_v49_apply]
  have hi : idx_main_v49 (ix4 b n c l) = ix4 b c n l := by
    funext a; match a with | ⟨0, _⟩ => rfl | ⟨1, _⟩ => rfl | ⟨2, _⟩ => rfl | ⟨3, _⟩ => rfl
  rw [hi]

end Chain1024_49

end Cert.ReferenceIdeal.RefValue

end
-- ==== Proof.RefChainC.lean ====
/-
  The reference's window of length 512 (front padding 256), one operation at a time, read at coordinates.

  At `(n, l)` the index array is the position word `n - 256 + l`; its validity bit, its clamp into `[0, 511]` and
  the start index handed to the gather are the words of the same names over it. The gather reads the sequence at
  `(b, c, ·)` with the last coordinate the clamped start index; the select keeps it where the validity bit is set and
  puts the zero constant elsewhere; the transposition exchanges the coordinates `c` and `n`.
-/
import proofs.«155050_j61091614819052_2_alg».proof.Proof.Gen.ReferenceIdeal.Read
import proofs.«155050_j61091614819052_2_alg».proof.Proof.RefWords
import proofs.«155050_j61091614819052_2_alg».proof.Proof.RefGather

noncomputable section

namespace Cert.ReferenceIdeal.RefValue

open Cert.ReferenceIdeal Cert.ReferenceIdeal.Read Cert.ReferenceIdeal.Gen Idealize.ShloMosaic Idealize.ShloMosaic.ValueIdx

section Chain512_74
variable {F : FTy → Type} [FloatOps F]

/-- The index array at `(n, l)` is the position word. -/
theorem v58_at (n : Fin 512) (l : Fin 512) : val_main_v58 (F := F) (ix2 n l) = posWord n.val 256 l.val := by
  rw [val_main_v58_apply, val_main_v56_apply, val_main_v53_apply, val_main_v51_apply, val_main_v50_apply,
    val_main_v52_apply, val_main_c_14_apply, val_main_v57_apply, val_main_v55_apply, val_main_v54_apply]
  rfl

/-- The validity array at `(n, l)` is the position word's validity bit. -/
theorem v63_at (n : Fin 512) (l : Fin 512) :
    val_main_v63 (F := F) (ix2 n l) = validBit (posWord n.val 256 l.val) := by
  rw [val_main_v63_apply, val_main_v60_apply, val_main_v62_apply, val_main_v59_apply, val_main_c_15_apply,
    val_main_v61_apply, val_main_c_16_apply, v58_at]
  rfl

/-- The clamped index array at `(n, l)` is the position word's clamp. -/
theorem v64_at (n : Fin 512) (l : Fin 512) :
    val_main_v64 (F := F) (ix2 n l) = clipWord (posWord n.val 256 l.val) := by
  rw [val_main_v64_apply, val_main_call4_v4_apply, val_main_call4_v3_apply, val_main_c_18_apply,
    val_main_call4_v2_apply, val_main_call4_v1_apply, val_main_call4_v0_apply, val_main_c_17_apply, v58_at]
  rfl

/-- The start-index array at `(n, l)` is the position word's start index. -/
theorem v69_at (n : Fin 512) (l : Fin 512) :
    val_main_v69 (F := F) (ix2 n l) = startWord (posWord n.val 256 l.val) := by
  rw [val_main_v69_apply, val_main_v66_apply, val_main_v68_apply, val_main_v65_apply, val_main_c_19_apply,
    val_main_v67_apply, val_main_c_20_apply, v64_at]
  rfl

/-- The start indices as a `[512, 512, 1]` array at `(n, l, 0)`. -/
theorem v70_at (n : Fin 512) (l : Fin 512) :
    val_main_v70 (F := F) (ix3 n l (0 : Fin 1)) = startWord (posWord n.val 256 l.val) := by
  rw [val_main_v70_apply]
  have hi : idx_main_v70 (ix3 n l (0 : Fin 1)) = ix2 n l := by
    funext a; match a with | ⟨0, _⟩ => rfl | ⟨1, _⟩ => rfl
  rw [hi, v69_at]

/-- The gathered array at `(b, c, n, l)`, where the position `n + l - 256` exists: the sequence there. -/
theorem v71_at (x : (⟨S2x64x512, .f32⟩ : BufTy).Contents (Elt F)) (b : Fin 2) (c : Fin 64) (n : Fin 512) (l : Fin 512)
    (p : Fin 512) (hp : n.val + l.val = 256 + p.val) :
    val_main_v71 (F := F) x (ix4 b c n l) = x (ix3 b c p) := by
  refine gather_win_apply_of_eq _ x (val_main_v70 (F := F)) b c n l p ?_
  rw [v70_at, startWord_posWord n.val 256 l.val n.isLt (by omega) (by have := l.isLt; omega)
    ⟨by omega, by have := p.isLt; omega⟩]
  omega

/-- The validity bit broadcast to `[2, 64, 512, 512]`, at `(b, c, n, l)`. -/
theorem call5_v0_at (b : Fin 2) (c : Fin 64) (n : Fin 512) (l : Fin 512) :
    val_main_call5_v0 (F := F) (ix4 b c n l) = validBit (posWord n.val 256 l.val) := by
  rw [val_main_call5_v0_apply, val_main_v72_apply]
  have hi : idx_main_v72 (idx_main_call5_v0 (ix4 b c n l)) = ix2 n l := by
    funext a; match a with | ⟨0, _⟩ => rfl | ⟨1, _⟩ => rfl
  rw [hi, v63_at]

/-- The selected array at `(b, c, n, l)`: the gathered element under the validity bit, the zero constant elsewhere. -/
theorem v73_at (x : (⟨S2x64x512, .f32⟩ : BufTy).Contents (Elt F)) (b : Fin 2) (c : Fin 64) (n : Fin 512) (l : Fin 512) :
    val_main_v73 (F := F) x (ix4 b c n l)
      = Scalar.select (validBit (posWord n.val 256 l.val)) (val_main_v71 (F := F) x (ix4 b c n l))
          (FloatOps.ofBits .f32 0x00000000#32) := by
  rw [val_main_v73_apply, call5_v0_at, val_main_call5_v1_apply, val_main_cst_21_apply]

/-- The result at `(b, n, c, l)` is the selected array at `(b, c, n, l)`. -/
theorem v74_at (x : (⟨S2x64x512, .f32⟩ : BufTy).Contents (Elt F)) (b : Fin 2) (n : Fin 512) (c : Fin 64) (l : Fin 512) :
    val_main_v74 (F := F) x (ix4 b n c l) = val_main_v73 (F := F) x (ix4 b c n l) := by
  rw [val_main_v74_apply]
  have hi : idx_main_v74 (ix4 b n c l) = ix4 b c n l := by
    funext a; match a with | ⟨0, _⟩ => rfl | ⟨1, _⟩ => rfl | ⟨2, _⟩ => rfl | ⟨3, _⟩ => rfl
  rw [hi]

end Chain512_74

end Cert.ReferenceIdeal.RefValue

end
-- ==== Proof.RefChainD.lean ====
/-
  The reference's window of length 512 (front padding 256), one operation at a time, read at coordinates.

  At `(n, l)` the index array is the position word `n - 256 + l`; its validity bit, its clamp into `[0, 511]` and
  the start index handed to the gather are the words of the same names over it. The gather reads the sequence at
  `(b, c, ·)` with the last coordinate the clamped start index; the select keeps it where the validity bit is set and
  puts the zero constant elsewhere; the transposition exchanges the coordinates `c` and `n`.
-/
import proofs.«155050_j61091614819052_2_alg».proof.Proof.Gen.ReferenceIdeal.Read
import proofs.«155050_j61091614819052_2_alg».proof.Proof.RefWords
import proofs.«155050_j61091614819052_2_alg».proof.Proof.RefGather

noncomputable section

namespace Cert.ReferenceIdeal.RefValue

open Cert.ReferenceIdeal Cert.ReferenceIdeal.Read Cert.ReferenceIdeal.Gen Idealize.ShloMosaic Idealize.ShloMosaic.ValueIdx

section Chain512_99
variable {F : FTy → Type} [FloatOps F]

/-- The index array at `(n, l)` is the position word. -/
theorem v83_at (n : Fin 512) (l : Fin 512) : val_main_v83 (F := F) (ix2 n l) = posWord n.val 256 l.val := by
  rw [val_main_v83_apply, val_main_v81_apply, val_main_v78_apply, val_main_v76_apply, val_main_v75_apply,
    val_main_v77_apply, val_main_c_22_apply, val_main_v82_apply, val_main_v80_apply, val_main_v79_apply]
  rfl

/-- The validity array at `(n, l)` is the position word's validity bit. -/
theorem v88_at (n : Fin 512) (l : Fin 512) :
    val_main_v88 (F := F) (ix2 n l) = validBit (posWord n.val 256 l.val) := by
  rw [val_main_v88_apply, val_main_v85_apply, val_main_v87_apply, val_main_v84_apply, val_main_c_23_apply,
    val_main_v86_apply, val_main_c_24_apply, v83_at]
  rfl

/-- The clamped index array at `(n, l)` is the position word's clamp. -/
theorem v89_at (n : Fin 512) (l : Fin 512) :
    val_main_v89 (F := F) (ix2 n l) = clipWord (posWord n.val 256 l.val) := by
  rw [val_main_v89_apply, val_main_call6_v4_apply, val_main_call6_v3_apply, val_main_c_26_apply,
    val_main_call6_v2_apply, val_main_call6_v1_apply, val_main_call6_v0_apply, val_main_c_25_apply, v83_at]
  rfl

/-- The start-index array at `(n, l)` is the position word's start index. -/
theorem v94_at (n : Fin 512) (l : Fin 512) :
    val_main_v94 (F := F) (ix2 n l) = startWord (posWord n.val 256 l.val) := by
  rw [val_main_v94_apply, val_main_v91_apply, val_main_v93_apply, val_main_v90_apply, val_main_c_27_apply,
    val_main_v92_apply, val_main_c_28_apply, v89_at]
  rfl

/-- The start indices as a `[512, 512, 1]` array at `(n, l, 0)`. -/
theorem v95_at (n : Fin 512) (l : Fin 512) :
    val_main_v95 (F := F) (ix3 n l (0 : Fin 1)) = startWord (posWord n.val 256 l.val) := by
  rw [val_main_v95_apply]
  have hi : idx_main_v95 (ix3 n l (0 : Fin 1)) = ix2 n l := by
    funext a; match a with | ⟨0, _⟩ => rfl | ⟨1, _⟩ => rfl
  rw [hi, v94_at]

/-- The gathered array at `(b, c, n, l)`, where the position `n + l - 256` exists: the sequence there. -/
theorem v96_at (x : (⟨S2x64x512, .f32⟩ : BufTy).Contents (Elt F)) (b : Fin 2) (c : Fin 64) (n : Fin 512) (l : Fin 512)
    (p : Fin 512) (hp : n.val + l.val = 256 + p.val) :
    val_main_v96 (F := F) x (ix4 b c n l) = x (ix3 b c p) := by
  refine gather_win_apply_of_eq _ x (val_main_v95 (F := F)) b c n l p ?_
  rw [v95_at, startWord_posWord n.val 256 l.val n.isLt (by omega) (by have := l.isLt; omega)
    ⟨by omega, by have := p.isLt; omega⟩]
  omega

/-- The validity bit broadcast to `[2, 64, 512, 512]`, at `(b, c, n, l)`. -/
theorem call7_v0_at (b : Fin 2) (c : Fin 64) (n : Fin 512) (l : Fin 512) :
    val_main_call7_v0 (F := F) (ix4 b c n l) = validBit (posWord n.val 256 l.val) := by
  rw [val_main_call7_v0_apply, val_main_v97_apply]
  have hi : idx_main_v97 (idx_main_call7_v0 (ix4 b c n l)) = ix2 n l := by
    funext a; match a with | ⟨0, _⟩ => rfl | ⟨1, _⟩ => rfl
  rw [hi, v88_at]

/-- The selected array at `(b, c, n, l)`: the gathered element under the validity bit, the zero constant elsewhere. -/
theorem v98_at (x : (⟨S2x64x512, .f32⟩ : BufTy).Contents (Elt F)) (b : Fin 2) (c : Fin 64) (n : Fin 512) (l : Fin 512) :
    val_main_v98 (F := F) x (ix4 b c n l)
      = Scalar.select (validBit (posWord n.val 256 l.val)) (val_main_v96 (F := F) x (ix4 b c n l))
          (FloatOps.ofBits .f32 0x00000000#32) := by
  rw [val_main_v98_apply, call7_v0_at, val_main_call7_v1_apply, val_main_cst_29_apply]

/-- The result at `(b, n, c, l)` is the selected array at `(b, c, n, l)`. -/
theorem v99_at (x : (⟨S2x64x512, .f32⟩ : BufTy).Contents (Elt F)) (b : Fin 2) (n : Fin 512) (c : Fin 64) (l : Fin 512) :
    val_main_v99 (F := F) x (ix4 b n c l) = val_main_v98 (F := F) x (ix4 b c n l) := by
  rw [val_main_v99_apply]
  have hi : idx_main_v99 (ix4 b n c l) = ix4 b c n l := by
    funext a; match a with | ⟨0, _⟩ => rfl | ⟨1, _⟩ => rfl | ⟨2, _⟩ => rfl | ⟨3, _⟩ => rfl
  rw [hi]

end Chain512_99

end Cert.ReferenceIdeal.RefValue

end
-- ==== Proof.RefWindows.lean ====
/-
  The reference's four results are the windows of the specification.

  Each result, read at `(b, n, c, l)`, is a select on the validity bit of the position word `n - half + l`. The bit is
  set exactly when the position `n + l - half` exists; there the gather reads the sequence at that position, which is
  the window entry; elsewhere the select gives the zero constant, which is the window entry outside the sequence.
-/
import proofs.«155050_j61091614819052_2_alg».proof.Proof.RefChainA
import proofs.«155050_j61091614819052_2_alg».proof.Proof.RefChainB
import proofs.«155050_j61091614819052_2_alg».proof.Proof.RefChainC
import proofs.«155050_j61091614819052_2_alg».proof.Proof.RefChainD
import proofs.«155050_j61091614819052_2_alg».proof.Proof.Spec
import Idealize.ShloMosaic.PureOps.Ideal.Laws

noncomputable section

namespace Cert.ReferenceIdeal.RefValue

open Cert.ReferenceIdeal Cert.ReferenceIdeal.Read Idealize.ShloMosaic Idealize.ShloMosaic.ValueIdx

/-- The reference's first result is the windows of length 256 with front padding 128. -/
theorem v24_eq (x : (⟨S2x64x512, .f32⟩ : BufTy).Contents (Elt Ideal)) :
    Read.val_main_v24 (F := Ideal) x = Cert.Windows.windows 128 256 x := by
  funext j
  obtain ⟨b, n, c, l, rfl⟩ : ∃ (b : Fin 2) (n : Fin 512) (c : Fin 64) (l : Fin 256), j = ix4 b n c l :=
    ⟨j 0, j 1, j 2, j 3, eq_ix4 j⟩
  rw [Cert.Windows.windows_apply, v24_at, v23_at]
  have hl := l.isLt
  by_cases hv : 128 ≤ n.val + l.val ∧ n.val + l.val < 128 + 512
  · rw [(validBit_posWord_iff n.val 128 l.val n.isLt (by omega) (by omega)).2 hv, select_one]
    have hp : n.val + l.val = 128 + (⟨n.val + l.val - 128, by omega⟩ : Fin 512).val := by
      show n.val + l.val = 128 + (n.val + l.val - 128); omega
    rw [Cert.Windows.windowsAt_inside 128 x b n c l.val _ hp]
    exact v21_at x b c n l _ hp
  · have hbit : validBit (posWord n.val 128 l.val) = 0#1 :=
      eq_zero_of_ne_one (fun h => hv ((validBit_posWord_iff n.val 128 l.val n.isLt (by omega) (by omega)).1 h))
    rw [hbit, select_zero, Cert.Windows.windowsAt_outside 128 x b n c l.val hv]
    exact Ideal.ofBits_zero_f32

/-- The reference's second result is the windows of length 1024 with front padding 512. -/
theorem v49_eq (x : (⟨S2x64x512, .f32⟩ : BufTy).Contents (Elt Ideal)) :
    Read.val_main_v49 (F := Ideal) x = Cert.Windows.windows 512 1024 x := by
  funext j
  obtain ⟨b, n, c, l, rfl⟩ : ∃ (b : Fin 2) (n : Fin 512) (c : Fin 64) (l : Fin 1024), j = ix4 b n c l :=
    ⟨j 0, j 1, j 2, j 3, eq_ix4 j⟩
  rw [Cert.Windows.windows_apply, v49_at, v48_at]
  have hl := l.isLt
  by_cases hv : 512 ≤ n.val + l.val ∧ n.val + l.val < 512 + 512
  · rw [(validBit_posWord_iff n.val 512 l.val n.isLt (by omega) (by omega)).2 hv, select_one]
    have hp : n.val + l.val = 512 + (⟨n.val + l.val - 512, by omega⟩ : Fin 512).val := by
      show n.val + l.val = 512 + (n.val + l.val - 512); omega
    rw [Cert.Windows.windowsAt_inside 512 x b n c l.val _ hp]
    exact v46_at x b c n l _ hp
  · have hbit : validBit (posWord n.val 512 l.val) = 0#1 :=
      eq_zero_of_ne_one (fun h => hv ((validBit_posWord_iff n.val 512 l.val n.isLt (by omega) (by omega)).1 h))
    rw [hbit, select_zero, Cert.Windows.windowsAt_outside 512 x b n c l.val hv]
    exact Ideal.ofBits_zero_f32

/-- The reference's third result is the windows of length 512 with front padding 256. -/
theorem v74_eq (x : (⟨S2x64x512, .f32⟩ : BufTy).Contents (Elt Ideal)) :
    Read.val_main_v74 (F := Ideal) x = Cert.Windows.windows 256 512 x := by
  funext j
  obtain ⟨b, n, c, l, rfl⟩ : ∃ (b : Fin 2) (n : Fin 512) (c : Fin 64) (l : Fin 512), j = ix4 b n c l :=
    ⟨j 0, j 1, j 2, j 3, eq_ix4 j⟩
  rw [Cert.Windows.windows_apply, v74_at, v73_at]
  have hl := l.isLt
  by_cases hv : 256 ≤ n.val + l.val ∧ n.val + l.val < 256 + 512
  · rw [(validBit_posWord_iff n.val 256 l.val n.isLt (by omega) (by omega)).2 hv, select_one]
    have hp : n.val + l.val = 256 + (⟨n.val + l.val - 256, by omega⟩ : Fin 512).val := by
      show n.val + l.val = 256 + (n.val + l.val - 256); omega
    rw [Cert.Windows.windowsAt_inside 256 x b n c l.val _ hp]
    exact v71_at x b c n l _ hp
  · have hbit : validBit (posWord n.val 256 l.val) = 0#1 :=
      eq_zero_of_ne_one (fun h => hv ((validBit_posWord_iff n.val 256 l.val n.isLt (by omega) (by omega)).1 h))
    rw [hbit, select_zero, Cert.Windows.windowsAt_outside 256 x b n c l.val hv]
    exact Ideal.ofBits_zero_f32

/-- The reference's fourth result is the windows of length 512 with front padding 256. -/
theorem v99_eq (x : (⟨S2x64x512, .f32⟩ : BufTy).Contents (Elt Ideal)) :
    Read.val_main_v99 (F := Ideal) x = Cert.Windows.windows 256 512 x := by
  funext j
  obtain ⟨b, n, c, l, rfl⟩ : ∃ (b : Fin 2) (n : Fin 512) (c : Fin 64) (l : Fin 512), j = ix4 b n c l :=
    ⟨j 0, j 1, j 2, j 3, eq_ix4 j⟩
  rw [Cert.Windows.windows_apply, v99_at, v98_at]
  have hl := l.isLt
  by_cases hv : 256 ≤ n.val + l.val ∧ n.val + l.val < 256 + 512
  · rw [(validBit_posWord_iff n.val 256 l.val n.isLt (by omega) (by omega)).2 hv, select_one]
    have hp : n.val + l.val = 256 + (⟨n.val + l.val - 256, by omega⟩ : Fin 512).val := by
      show n.val + l.val = 256 + (n.val + l.val - 256); omega
    rw [Cert.Windows.windowsAt_inside 256 x b n c l.val _ hp]
    exact v96_at x b c n l _ hp
  · have hbit : validBit (posWord n.val 256 l.val) = 0#1 :=
      eq_zero_of_ne_one (fun h => hv ((validBit_posWord_iff n.val 256 l.val n.isLt (by omega) (by omega)).1 h))
    rw [hbit, select_zero, Cert.Windows.windowsAt_outside 256 x b n c l.val hv]
    exact Ideal.ofBits_zero_f32

end Cert.ReferenceIdeal.RefValue

end
-- ==== Proof.lean ====
/-
  Sliding windows of a sequence, by a tiled kernel and by a gather.

  From a sequence `x` of shape [2, 64, 512] both programs produce, for the window lengths `L` = 256, 1024, 512 and 512
  (with `half = L / 2`), the array of shape [2, 512, 64, L] whose entry `(b, n, c, l)` is `x (b, c, n + l - half)` where that
  position exists and zero elsewhere (`Cert.Windows.windows`, Proof/Spec.lean).

  The kernel's program pads `x` with `half` zeros in front and `L - 1 - half` behind and launches a grid whose point
  `(i₀, i₁)` loads 383 consecutive lanes of the padded sequence from lane `128·i₀ + 256·i₁` and stores lanes `r … r + 255` of
  them into row `r` of its output block, `r = 0 … 127`; so block `(i₀, i₁)` holds, at row `r` and lane `l`, the padded sequence
  at lane `(128·i₀ + r) + (256·i₁ + l)`, and the blocks fill the array (Proof/KernelStrip, KernelRegion0–2, KernelPad,
  KernelRun, KernelValue). The two results of length 512 are one array returned twice.

  The reference computes the positions `n + l - half` in 32-bit integers, marks the valid ones, clips them into [0, 511],
  gathers `x` there and selects zero where the position was not valid (Proof/RefWords, RefGather, RefChainA–D, RefWindows).

  No arithmetic is done on the entries, so the two results agree on every extended real: the precondition is not used.
  The idealization rewrote nothing, so `preserves` is trivial. The frames of the two kernel programs are the generated
  ones; the reference's frame is its generated run with the results dropped.
-/
import proofs.«155050_j61091614819052_2_alg».proof.Defs
import proofs.«155050_j61091614819052_2_alg».proof.Proof.Gen.Kernel
import proofs.«155050_j61091614819052_2_alg».proof.Proof.Gen.Kernel.Skeleton
import proofs.«155050_j61091614819052_2_alg».proof.Proof.Gen.Kernel.Launch
import proofs.«155050_j61091614819052_2_alg».proof.Proof.Gen.Kernel.Points
import proofs.«155050_j61091614819052_2_alg».proof.Proof.Gen.Kernel.Frame
import proofs.«155050_j61091614819052_2_alg».proof.Proof.Gen.KernelIdeal
import proofs.«155050_j61091614819052_2_alg».proof.Proof.Gen.KernelIdeal.Skeleton
import proofs.«155050_j61091614819052_2_alg».proof.Proof.Gen.KernelIdeal.Launch
import proofs.«155050_j61091614819052_2_alg».proof.Proof.Gen.KernelIdeal.Points
import proofs.«155050_j61091614819052_2_alg».proof.Proof.Gen.KernelIdeal.Frame
import proofs.«155050_j61091614819052_2_alg».proof.Proof.Gen.ReferenceIdeal
import proofs.«155050_j61091614819052_2_alg».proof.Proof.Gen.ReferenceIdeal.Run
import proofs.«155050_j61091614819052_2_alg».proof.Proof.Gen.ReferenceIdeal.Read
import proofs.«155050_j61091614819052_2_alg».proof.Proof.Gen.Pre_finite_inputs
import proofs.«155050_j61091614819052_2_alg».proof.Proof.Spec
import proofs.«155050_j61091614819052_2_alg».proof.Proof.KernelValue
import proofs.«155050_j61091614819052_2_alg».proof.Proof.RefWindows
import Idealize.ShloMosaic.Adequacy
import Idealize.ShloMosaic.Init

noncomputable section

namespace Cert.Proof

open Idealize.ShloMosaic Idealize.ShloMosaic.TcCoe Idealize.SL.Sem Cert.Windows

/-- The word-level kernel program runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its argument unchanged: its run, the results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories agreeing on the argument both programs end with the windows of lengths 256, 1024, 512 and 512 of it. -/
theorem algebraic : Cert.algebraic_KernelIdeal_ReferenceIdeal := by
  intro m ρ m' ρ' _ hagree
  refine ⟨fun c => windows 128 256 (m ((c.tc : Thread Cert.KernelIdeal.nD Cert.KernelIdeal.τ).loc Cert.KernelIdeal.main_arg0)),
    fun c => windows 512 1024 (m ((c.tc : Thread Cert.KernelIdeal.nD Cert.KernelIdeal.τ).loc Cert.KernelIdeal.main_arg0)),
    fun c => windows 256 512 (m ((c.tc : Thread Cert.KernelIdeal.nD Cert.KernelIdeal.τ).loc Cert.KernelIdeal.main_arg0)),
    fun c => windows 256 512 (m ((c.tc : Thread Cert.KernelIdeal.nD Cert.KernelIdeal.τ).loc Cert.KernelIdeal.main_arg0)), ?_, ?_⟩
  · exact (θ_run Cert.KernelIdeal.defs _ _).mono
      (fun r h c => ⟨(h c).1, (h c).2.1, (h c).2.2.1, (h c).2.2.1, (h c).2.2.2⟩)
      (Cert.KernelIdeal.RunValue.run m ρ)
  · refine (θ_run Cert.ReferenceIdeal.defs _ _).mono (fun r h c => ⟨?_, ?_, ?_, ?_, (h c).2.2.2.2⟩)
      (Cert.ReferenceIdeal.Value.run (F := Ideal) m' ρ')
    · exact (h c).1.trans ((Cert.ReferenceIdeal.Read.val_main_v24_eq _).trans
        ((Cert.ReferenceIdeal.RefValue.v24_eq _).trans (congrArg (windows 128 256) (hagree c))))
    · exact (h c).2.1.trans ((Cert.ReferenceIdeal.Read.val_main_v49_eq _).trans
        ((Cert.ReferenceIdeal.RefValue.v49_eq _).trans (congrArg (windows 512 1024) (hagree c))))
    · exact (h c).2.2.1.trans ((Cert.ReferenceIdeal.Read.val_main_v74_eq _).trans
        ((Cert.ReferenceIdeal.RefValue.v74_eq _).trans (congrArg (windows 256 512) (hagree c))))
    · exact (h c).2.2.2.1.trans ((Cert.ReferenceIdeal.Read.val_main_v99_eq _).trans
        ((Cert.ReferenceIdeal.RefValue.v99_eq _).trans (congrArg (windows 256 512) (hagree c))))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
